-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S1250000x64 : Shape := ⟨2, ![1250000, 64]⟩
abbrev S64x128 : Shape := ⟨2, ![64, 128]⟩
abbrev S64 : Shape := ⟨1, ![64]⟩
abbrev S2x128 : Shape := ⟨2, ![2, 128]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1250000x64 : S_.BroadcastsInDim S1250000x64 (![] : Fin 0 → Fin S1250000x64.rank)
  reducesTo_S1250000x64_S_d0_1 : S1250000x64.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S2 .f32) (main_v33 : IVec S_ 1) : IVec S_ 1 :=
  let main_v34 : FVec F S2 .f32 := Host.absf main_arg8
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  main_v38

def fn_part1 {F : FTy → Type} [FloatOps F] (main_arg5 : FVec F S64x128 .f32) (main_arg6 : FVec F S64 .f32) (main_arg7 : FVec F S2x128 .f32) (main_arg8 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S2x128 .f32 := Host.absf main_arg7
  let main_cst_10 : FVec F S_ .f32 := constant S_ .f32 0x7F800000#32
  let main_v30 : FVec F S2x128 .f32 := broadcastInDim S2x128 ![] bcast_S_S2x128 main_cst_10
  let main_v31 : IVec S2x128 1 := cmpf .olt main_v29 main_v30
  let main_c_11 : IVec S_ 1 := constantI S_ 1 1#1
  let main_v32 : IVec S_ 1 := (fun x v => Host.reduce IntOp.andi x v reducesTo_S2x128_S_d0_1 h_S_) main_v31 main_c_11
  let main_v33 : IVec S_ 1 := andi main_v28 main_v32
  fn_part2 (F := F) main_arg8 main_v33

def fn {F : FTy → Type} [FloatOps F] (main_arg0 : FVec F S100000x64 .f32) (main_arg1 : IVec S2x1250000 32) (main_arg2 : FVec F S1250000x64 .f32) (main_arg3 : FVec F S64x128 .f32) (main_arg4 : FVec F S64 .f32) (main_arg5 : FVec F S64x128 .f32) (main_arg6 : FVec F S64 .f32) (main_arg7 : FVec F S2x128 .f32) (main_arg8 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1250000x64 .f32 := Host.absf main_arg2
  let main_cst_0 : FVec F S_ .f32 := constant S_ .f32 0x7F800000#32
  let main_v5 : FVec F S1250000x64 .f32 := broadcastInDim S1250000x64 ![] bcast_S_S1250000x64 main_cst_0
  let main_v6 : IVec S1250000x64 1 := cmpf .olt main_v4 main_v5
  let main_c_1 : IVec S_ 1 := constantI S_ 1 1#1
  let main_v7 : IVec S_ 1 := (fun x v => Host.reduce IntOp.andi x v reducesTo_S1250000x64_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S100000x64 : Shape := ⟨2, ![100000, 64]⟩
abbrev S2x1250000 : Shape := ⟨2, ![2, 1250000]⟩
abbrev S1250000x64 : Shape := ⟨2, ![1250000, 64]⟩
abbrev S64x128 : Shape := ⟨2, ![64, 128]⟩
abbrev S64 : Shape := ⟨1, ![64]⟩
abbrev S2x128 : Shape := ⟨2, ![2, 128]⟩
abbrev S2 : Shape := ⟨1, ![2]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S64x64 : Shape := ⟨2, ![64, 64]⟩
abbrev S1x64 : Shape := ⟨2, ![1, 64]⟩
abbrev S10000x64 : Shape := ⟨2, ![10000, 64]⟩
abbrev S100000 : Shape := ⟨1, ![100000]⟩
abbrev S100000x1 : Shape := ⟨2, ![100000, 1]⟩
abbrev S2x64 : Shape := ⟨2, ![2, 64]⟩
abbrev S64x2 : Shape := ⟨2, ![64, 2]⟩
abbrev S1x2 : Shape := ⟨2, ![1, 2]⟩
abbrev S1250000x2 : Shape := ⟨2, ![1250000, 2]⟩
abbrev S10000x2 : Shape := ⟨2, ![10000, 2]⟩

abbrev nBuf : Space → Nat
  | .hbm => 74
  | .vmem => 27
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S1250000x64, .f32⟩
  | .hbm, ⟨3, _⟩ => ⟨S64x128, .f32⟩
  | .hbm, ⟨4, _⟩ => ⟨S64, .f32⟩
  | .hbm, ⟨5, _⟩ => ⟨S64x128, .f32⟩
  | .hbm, ⟨6, _⟩ => ⟨S64, .f32⟩
  | .hbm, ⟨7, _⟩ => ⟨S2x128, .f32⟩
  | .hbm, ⟨8, _⟩ => ⟨S2, .f32⟩
  | .hbm, ⟨9, _⟩ => ⟨S1x1250000, .i32⟩
  | .hbm, ⟨10, _⟩ => ⟨S1250000, .i32⟩
  | .hbm, ⟨11, _⟩ => ⟨S1x1250000, .i32⟩
  | .hbm, ⟨12, _⟩ => ⟨S1250000, .i32⟩
  | .hbm, ⟨13, _⟩ => ⟨S_, .i32⟩
  | .hbm, ⟨14, _⟩ => ⟨S1250000, .i32⟩
  | .hbm, ⟨15, _⟩ => ⟨S1250000, .i1⟩
  | .hbm, ⟨16, _⟩ => ⟨S_, .i32⟩
  | .hbm, ⟨17, _⟩ => ⟨S1250000, .i32⟩
  | .hbm, ⟨18, _⟩ => ⟨S1250000, .i32⟩
  | .hbm, ⟨19, _⟩ => ⟨S1250000, .i32⟩
  | .hbm, ⟨20, _⟩ => ⟨S1250000x1, .i32⟩
  | .hbm, ⟨21, _⟩ => ⟨S1250000x64, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S1x64, .f32⟩
  | .hbm, ⟨27, _⟩ => ⟨S1250000x64, .f32⟩
  | .hbm, ⟨28, _⟩ => ⟨S_, .f32⟩
  | .hbm, ⟨29, _⟩ => ⟨S100000x64, .f32⟩
  | .hbm, ⟨30, _⟩ => ⟨S1250000x1, .i32⟩
  | .hbm, ⟨31, _⟩ => ⟨S100000x64, .f32⟩
  | .hbm, ⟨32, _⟩ => ⟨S_, .f32⟩
  | .hbm, ⟨33, _⟩ => ⟨S1250000, .f32⟩
  | .hbm, ⟨34, _⟩ => ⟨S_, .f32⟩
  | .hbm, ⟨35, _⟩ => ⟨S100000, .f32⟩
  | .hbm, ⟨36, _⟩ => ⟨S1250000x1, .i32⟩
  | .hbm, ⟨37, _⟩ => ⟨S100000, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S100000x1, .f32⟩
  | .hbm, ⟨42, _⟩ => ⟨S100000x64, .f32⟩
  | .hbm, ⟨43, _⟩ => ⟨S100000x64, .f32⟩
  | .hbm, ⟨44, _⟩ => ⟨S64x64, .f32⟩
  | .hbm, ⟨45, _⟩ => ⟨S64x64, .f32⟩
  | .hbm, ⟨46, _⟩ => ⟨S64x64, .f32⟩
  | .hbm, ⟨47, _⟩ => ⟨S64x64, .f32⟩
  | .hbm, ⟨48, _⟩ => ⟨S1x64, .f32⟩
  | .hbm, ⟨49, _⟩ => ⟨S100000x64, .f32⟩
  | .hbm, ⟨50, _⟩ => ⟨S_, .i32⟩
  | .hbm, ⟨51, _⟩ => ⟨S1250000, .i32⟩
  | .hbm, ⟨52, _⟩ => ⟨S1250000, .i1⟩
  | .hbm, ⟨53, _⟩ => ⟨S_, .i32⟩
  | .hbm, ⟨54, _⟩ => ⟨S1250000, .i32⟩
  | .hbm, ⟨55, _⟩ => ⟨S1250000, .i32⟩
  | .hbm, ⟨56, _⟩ => ⟨S1250000, .i32⟩
  | .hbm, ⟨57, _⟩ => ⟨S1250000x1, .i32⟩
  | .hbm, ⟨58, _⟩ => ⟨S1250000x64, .f32⟩
  | .hbm, ⟨59, _⟩ => ⟨S_, .i32⟩
  | .hbm, ⟨60, _⟩ => ⟨S1250000, .i32⟩
  | .hbm, ⟨61, _⟩ => ⟨S1250000, .i1⟩
  | .hbm, ⟨62, _⟩ => ⟨S_, .i32⟩
  | .hbm, ⟨63, _⟩ => ⟨S1250000, .i32⟩
  | .hbm, ⟨64, _⟩ => ⟨S1250000, .i32⟩
  | .hbm, ⟨65, _⟩ => ⟨S1250000, .i32⟩
  | .hbm, ⟨66, _⟩ => ⟨S1250000x1, .i32⟩
  | .hbm, ⟨67, _⟩ => ⟨S1250000x64, .f32⟩
  | .hbm, ⟨68, _⟩ => ⟨S2x64, .f32⟩
  | .hbm, ⟨69, _⟩ => ⟨S64x2, .f32⟩
  | .hbm, ⟨70, _⟩ => ⟨S2x64, .f32⟩
  | .hbm, ⟨71, _⟩ => ⟨S64x2, .f32⟩
  | .hbm, ⟨72, _⟩ => ⟨S1x2, .f32⟩
  | .hbm, ⟨73, _⟩ => ⟨S1250000x2, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x2, .f32⟩
  | .local _ .vmem, ⟨23, _⟩ => ⟨S64x2, .f32⟩
  | .local _ .vmem, ⟨24, _⟩ => ⟨S1x2, .f32⟩
  | .local _ .vmem, ⟨25, _⟩ => ⟨S10000x2, .f32⟩
  | .local _ .vmem, ⟨26, _⟩ => ⟨S10000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_4 : Ref sig .tc := ⟨.hbm, 50, rfl⟩
abbrev main_v35 : Ref sig .tc := ⟨.hbm, 51, rfl⟩
abbrev main_v36 : Ref sig .tc := ⟨.hbm, 52, rfl⟩
abbrev main_c_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_6 : Ref sig .tc := ⟨.hbm, 59, rfl⟩
abbrev main_v42 : Ref sig .tc := ⟨.hbm, 60, rfl⟩
abbrev main_v43 : Ref sig .tc := ⟨.hbm, 61, rfl⟩
abbrev main_c_7 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x2 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  slices_S64x128_S64x64_0_0 : S64x128.Slices ![0, 0] S64x64
  transposes_S64x64_S64x64_1_0 : S64x64.Transposes [1, 0] S64x64
  slices_S64x128_S64x64_0_64 : S64x128.Slices ![0, 64] S64x64
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  slices_S2x128_S2x64_0_0 : S2x128.Slices ![0, 0] S2x64
  transposes_S2x64_S64x2_1_0 : S2x64.Transposes [1, 0] S64x2
  slices_S2x128_S2x64_0_64 : S2x128.Slices ![0, 64] S2x64
  shapeCasts_S2_S1x2 : S2.ShapeCasts S1x2
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  inb_S10000x2_S10000x2_0_0 : ∀ a, (![0, 0] : Fin 2 → Nat) a + S10000x2.size a ≤ S10000x2.size a
  h_S10000x2 : 0 < S10000x2.numel
  gather_S100000x64_S1250000x1_S1250000x64_1_0_n_n_0_1_164_wf : GatherDims.WF S100000x64 S1250000x1 S1250000x64 [1] [0] [] [0] [] 1 ![1, 64]
  dot_S10000x64_S64x64_S10000x64_1_0_0_1_n_n_wf : DotDims.WF S10000x64 S64x64 S10000x64 [1] [0] [0] [1] [] []
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S10000x64_S64x2_S10000x2_1_0_0_1_n_n_wf : DotDims.WF S10000x64 S64x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S1250000x64.size a
  hwx0_0 : ∀ i : grid0.Coords, EltTy.bits .f32 = 32 ∨ (Rect.block (s := S1250000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S1250000x64.size a
  hwx0_1 : ∀ i : grid0.Coords, EltTy.bits .f32 = 32 ∨ (Rect.block (s := S1250000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S1250000x64.size a
  hwx0_5 : ∀ i : grid0.Coords, EltTy.bits .f32 = 32 ∨ (Rect.block (s := S1250000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S1250000x64.size a
  hwx2_0 : ∀ i : grid2.Coords, EltTy.bits .f32 = 32 ∨ (Rect.block (s := S1250000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S1250000x64.size a
  hwx2_1 : ∀ i : grid2.Coords, EltTy.bits .f32 = 32 ∨ (Rect.block (s := S1250000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x2.size a ≤ S64x2.size a
  hwx2_2 : ∀ i : grid2.Coords, EltTy.bits .f32 = 32 ∨ (Rect.block (s := S64x2) S64x2.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x2.size a ≤ S64x2.size a
  hwx2_3 : ∀ i : grid2.Coords, EltTy.bits .f32 = 32 ∨ (Rect.block (s := S64x2) S64x2.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x2.size a ≤ S1x2.size a
  hwx2_4 : ∀ i : grid2.Coords, EltTy.bits .f32 = 32 ∨ (Rect.block (s := S1x2) S1x2.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x2.size a ≤ S1250000x2.size a
  hwx2_5 : ∀ i : grid2.Coords, EltTy.bits .f32 = 32 ∨ (Rect.block (s := S1250000x2) S10000x2.size (cc2_transform_5 i) (hinb2_5 i)).WholeWords (EltTy.packing .f32)

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S10000x64_S64x2_S10000x2_1_0_0_1_n_n : DotDims S10000x64 S64x2 S10000x2 where
  lhsContracting := [1]
  rhsContracting := [0]
  lhsNonContracting := [0]
  rhsNonContracting := [1]
  lhsBatch := []
  rhsBatch := []
  wf := dot_S10000x64_S64x2_S10000x2_1_0_0_1_n_n_wf

abbrev win0_0 : Pipeline.Window sig grid0 :=
  Pipeline.Window.ofSpec (Memref.whole main_v10) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v41) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v50) S64x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S64x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S1x2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S10000x2.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S1250000x64 : Shape := ⟨2, ![1250000, 64]⟩
abbrev S64x128 : Shape := ⟨2, ![64, 128]⟩
abbrev S64 : Shape := ⟨1, ![64]⟩
abbrev S2x128 : Shape := ⟨2, ![2, 128]⟩
abbrev S2 : Shape := ⟨1, ![2]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x128 : Shape := ⟨2, ![1250000, 128]⟩
abbrev S128x64 : Shape := ⟨2, ![128, 64]⟩
abbrev S1x64 : Shape := ⟨2, ![1, 64]⟩
abbrev S100000 : Shape := ⟨1, ![100000]⟩
abbrev S100000x1 : Shape := ⟨2, ![100000, 1]⟩
abbrev S100000x128 : Shape := ⟨2, ![100000, 128]⟩
abbrev S128x2 : Shape := ⟨2, ![128, 2]⟩
abbrev S1250000x2 : Shape := ⟨2, ![1250000, 2]⟩
abbrev S1x2 : Shape := ⟨2, ![1, 2]⟩

abbrev nBuf : Space → Nat
  | .hbm => 77
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S1250000x64, .f32⟩
  | .hbm, ⟨3, _⟩ => ⟨S64x128, .f32⟩
  | .hbm, ⟨4, _⟩ => ⟨S64, .f32⟩
  | .hbm, ⟨5, _⟩ => ⟨S64x128, .f32⟩
  | .hbm, ⟨6, _⟩ => ⟨S64, .f32⟩
  | .hbm, ⟨7, _⟩ => ⟨S2x128, .f32⟩
  | .hbm, ⟨8, _⟩ => ⟨S2, .f32⟩
  | .hbm, ⟨9, _⟩ => ⟨S1x1250000, .i32⟩
  | .hbm, ⟨10, _⟩ => ⟨S1250000, .i32⟩
  | .hbm, ⟨11, _⟩ => ⟨S1x1250000, .i32⟩
  | .hbm, ⟨12, _⟩ => ⟨S1250000, .i32⟩
  | .hbm, ⟨13, _⟩ => ⟨S_, .i32⟩
  | .hbm, ⟨14, _⟩ => ⟨S1250000, .i32⟩
  | .hbm, ⟨15, _⟩ => ⟨S1250000, .i1⟩
  | .hbm, ⟨16, _⟩ => ⟨S_, .i32⟩
  | .hbm, ⟨17, _⟩ => ⟨S1250000, .i32⟩
  | .hbm, ⟨18, _⟩ => ⟨S1250000, .i32⟩
  | .hbm, ⟨19, _⟩ => ⟨S1250000, .i32⟩
  | .hbm, ⟨20, _⟩ => ⟨S1250000x1, .i32⟩
  | .hbm, ⟨21, _⟩ => ⟨S1250000x64, .f32⟩
  | .hbm, ⟨22, _⟩ => ⟨S1250000x128, .f32⟩
  | .hbm, ⟨23, _⟩ => ⟨S128x64, .f32⟩
  | .hbm, ⟨24, _⟩ => ⟨S1250000x64, .f32⟩
  | .hbm, ⟨25, _⟩ => ⟨S1x64, .f32⟩
  | .hbm, ⟨26, _⟩ => ⟨S1250000x64, .f32⟩
  | .hbm, ⟨27, _⟩ => ⟨S1250000x64, .f32⟩
  | .hbm, ⟨28, _⟩ => ⟨S_, .f32⟩
  | .hbm, ⟨29, _⟩ => ⟨S100000x64, .f32⟩
  | .hbm, ⟨30, _⟩ => ⟨S1250000x1, .i32⟩
  | .hbm, ⟨31, _⟩ => ⟨S100000x64, .f32⟩
  | .hbm, ⟨32, _⟩ => ⟨S_, .f32⟩
  | .hbm, ⟨33, _⟩ => ⟨S1250000, .f32⟩
  | .hbm, ⟨34, _⟩ => ⟨S_, .f32⟩
  | .hbm, ⟨35, _⟩ => ⟨S100000, .f32⟩
  | .hbm, ⟨36, _⟩ => ⟨S1250000x1, .i32⟩
  | .hbm, ⟨37, _⟩ => ⟨S100000, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S100000x1, .f32⟩
  | .hbm, ⟨42, _⟩ => ⟨S100000x64, .f32⟩
  | .hbm, ⟨43, _⟩ => ⟨S100000x64, .f32⟩
  | .hbm, ⟨44, _⟩ => ⟨S100000x128, .f32⟩
  | .hbm, ⟨45, _⟩ => ⟨S128x64, .f32⟩
  | .hbm, ⟨46, _⟩ => ⟨S100000x64, .f32⟩
  | .hbm, ⟨47, _⟩ => ⟨S1x64, .f32⟩
  | .hbm, ⟨48, _⟩ => ⟨S100000x64, .f32⟩
  | .hbm, ⟨49, _⟩ => ⟨S100000x64, .f32⟩
  | .hbm, ⟨50, _⟩ => ⟨S_, .f32⟩
  | .hbm, ⟨51, _⟩ => ⟨S100000x64, .f32⟩
  | .hbm, ⟨52, _⟩ => ⟨S100000x64, .f32⟩
  | .hbm, ⟨53, _⟩ => ⟨S_, .i32⟩
  | .hbm, ⟨54, _⟩ => ⟨S1250000, .i32⟩
  | .hbm, ⟨55, _⟩ => ⟨S1250000, .i1⟩
  | .hbm, ⟨56, _⟩ => ⟨S_, .i32⟩
  | .hbm, ⟨57, _⟩ => ⟨S1250000, .i32⟩
  | .hbm, ⟨58, _⟩ => ⟨S1250000, .i32⟩
  | .hbm, ⟨59, _⟩ => ⟨S1250000, .i32⟩
  | .hbm, ⟨60, _⟩ => ⟨S1250000x1, .i32⟩
  | .hbm, ⟨61, _⟩ => ⟨S1250000x64, .f32⟩
  | .hbm, ⟨62, _⟩ => ⟨S_, .i32⟩
  | .hbm, ⟨63, _⟩ => ⟨S1250000, .i32⟩
  | .hbm, ⟨64, _⟩ => ⟨S1250000, .i1⟩
  | .hbm, ⟨65, _⟩ => ⟨S_, .i32⟩
  | .hbm, ⟨66, _⟩ => ⟨S1250000, .i32⟩
  | .hbm, ⟨67, _⟩ => ⟨S1250000, .i32⟩
  | .hbm, ⟨68, _⟩ => ⟨S1250000, .i32⟩
  | .hbm, ⟨69, _⟩ => ⟨S1250000x1, .i32⟩
  | .hbm, ⟨70, _⟩ => ⟨S1250000x64, .f32⟩
  | .hbm, ⟨71, _⟩ => ⟨S1250000x128, .f32⟩
  | .hbm, ⟨72, _⟩ => ⟨S128x2, .f32⟩
  | .hbm, ⟨73, _⟩ => ⟨S1250000x2, .f32⟩
  | .hbm, ⟨74, _⟩ => ⟨S1x2, .f32⟩
  | .hbm, ⟨75, _⟩ => ⟨S1250000x2, .f32⟩
  | .hbm, ⟨76, _⟩ => ⟨S1250000x2, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_call0_cst : Ref sig .tc := ⟨.hbm, 50, rfl⟩
abbrev main_call0_v0 : Ref sig .tc := ⟨.hbm, 51, rfl⟩
abbrev main_v35 : Ref sig .tc := ⟨.hbm, 52, rfl⟩
abbrev main_c_4 : Ref sig .tc := ⟨.hbm, 53, rfl⟩
abbrev main_v36 : Ref sig .tc := ⟨.hbm, 54, rfl⟩
abbrev main_v37 : Ref sig .tc := ⟨.hbm, 55, rfl⟩
abbrev main_c_5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_6 : Ref sig .tc := ⟨.hbm, 62, rfl⟩
abbrev main_v43 : Ref sig .tc := ⟨.hbm, 63, rfl⟩
abbrev main_v44 : Ref sig .tc := ⟨.hbm, 64, rfl⟩
abbrev main_c_7 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  concatenates_S1250000x64_S1250000x64_S1250000x128_d1 : Shape.Concatenates [S1250000x64, S1250000x64] S1250000x128 1
  transposes_S64x128_S128x64_1_0 : S64x128.Transposes [1, 0] S128x64
  bcast_S64_S1x64_1 : S64.BroadcastsInDim S1x64 (![1] : Fin 1 → Fin S1x64.rank)
  bcast_S1x64_S1250000x64_0_1 : S1x64.BroadcastsInDim S1250000x64 (![0, 1] : Fin 2 → Fin S1250000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  bcast_S1x64_S100000x64_0_1 : S1x64.BroadcastsInDim S100000x64 (![0, 1] : Fin 2 → Fin S100000x64.rank)
  transposes_S2x128_S128x2_1_0 : S2x128.Transposes [1, 0] S128x2
  bcast_S2_S1x2_1 : S2.BroadcastsInDim S1x2 (![1] : Fin 1 → Fin S1x2.rank)
  bcast_S1x2_S1250000x2_0_1 : S1x2.BroadcastsInDim S1250000x2 (![0, 1] : Fin 2 → Fin S1250000x2.rank)
  gather_S100000x64_S1250000x1_S1250000x64_1_0_n_n_0_1_164_wf : GatherDims.WF S100000x64 S1250000x1 S1250000x64 [1] [0] [] [0] [] 1 ![1, 64]
  dot_S1250000x128_S128x64_S1250000x64_1_0_0_1_n_n_wf : DotDims.WF S1250000x128 S128x64 S1250000x64 [1] [0] [0] [1] [] []
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S100000x128_S128x64_S100000x64_1_0_0_1_n_n_wf : DotDims.WF S100000x128 S128x64 S100000x64 [1] [0] [0] [1] [] []
  dot_S1250000x128_S128x2_S1250000x2_1_0_0_1_n_n_wf : DotDims.WF S1250000x128 S128x2 S1250000x2 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def dot_S1250000x128_S128x64_S1250000x64_1_0_0_1_n_n : DotDims S1250000x128 S128x64 S1250000x64 where
  lhsContracting := [1]
  rhsContracting := [0]
  lhsNonContracting := [0]
  rhsNonContracting := [1]
  lhsBatch := []
  rhsBatch := []
  wf := dot_S1250000x128_S128x64_S1250000x64_1_0_0_1_n_n_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S1250000x128_S128x2_S1250000x2_1_0_0_1_n_n : DotDims S1250000x128 S128x2 S1250000x2 where
  lhsContracting := [1]
  rhsContracting := [0]
  lhsNonContracting := [0]
  rhsNonContracting := [1]
  lhsBatch := []
  rhsBatch := []
  wf := dot_S1250000x128_S128x2_S1250000x2_1_0_0_1_n_n_wf

class Facts : Prop extends Facts₀ where

variable [Facts]
-- ==== Proof.KernelRun.lean ====
import proofs.«181442_j6949257085052_1_alg».proof.Proof.KernelIdealFrameP

/-!
# The idealized kernel's run, with its result array named

The same run as the generated frame of the three-region program, read once more at the end: the final thread state
holds every unscoped buffer at the contents the fold through @main leaves there (`GenP.W6`), so besides the nine
argument arrays the result array `main_v54` is read off it too, at `GenP.W6 m ρ c main_v54`.
-/

set_option maxRecDepth 16384

noncomputable section

namespace Cert.KernelIdeal.Named

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result array ends at the fold's contents and
    the arguments end as launched. -/
theorem run_named : θ_run defs (onTc (τ := τ) (main (F := F))) ⟨m, fun _ => 0, ρ⟩ (fun r => ∀ c : Dev nD,
      r.2.mem ((c.tc : Thread nD τ).loc main_v54) = GenP.W6 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v54 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.Named

end
-- ==== Proof.LibPlainProduct.lean ====
import Idealize.ShloMosaic.Lib.StackMember
import Idealize.ShloMosaic.Lib.IdealHost
import Idealize.ShloMosaic.Lib.Pipeline.Value

/-!
# Plain matrix products, a transpose, and the logistic function spelled out, read at an index over the extended reals

A dot-dimensions record that contracts the first operand's second axis with the second operand's first axis and has
no batch axis is the plain product of an `m × k` by a `k × n` matrix, whatever proof of well-formedness it carries.
For such a record the host's `dot_general` at `(a, b)` is the sum over the contracted coordinate `c` of
`A (a, c) * B (c, b)`, and a kernel's `matmul` into an accumulator is the accumulator's entry plus that sum. A transposed
matrix at `(a, b)` is the matrix at `(b, a)`. And the reference's expansion of the logistic function into negate,
exponential, add and divide, with its two ones broadcast from a scalar constant, is `Ideal.logistic` of the element.
-/

namespace PlainProduct

open Idealize.ShloMosaic Idealize.ShloMosaic.ValueIdx

/-- The host's product, for any record that is the plain one. -/
theorem dotGeneral_at {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    Host.dotGeneral d prec A B (ix2 a b) = ∑ c : Fin k, A (ix2 a c) * B (ix2 c b) := by
  subst hd
  exact StackMember.dotGeneral_plain_apply prec A B a b

/-- A kernel's product into an accumulator, for any record that is the plain one: the accumulator's entry plus the
    sum. -/
theorem matmul_at {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (acc : FVec Ideal ⟨2, ![m, n]⟩ .f32) (a : Fin m) (b : Fin n) :
    matmul d prec A B acc (ix2 a b) = acc (ix2 a b) + ∑ c : Fin k, A (ix2 a c) * B (ix2 c b) := by
  have h := dotGeneral_at d hd prec A B a b
  show FloatOps.matmul d prec A B acc (ix2 a b) = _
  rw [Ideal.matmul_apply]
  refine congrArg (acc (ix2 a b) + ·) ?_
  rw [← h]
  show _ = FloatOps.dotGeneral d prec _ A B (ix2 a b)
  rw [Ideal.dotGeneral_apply]

/-- The reference's logistic function, spelled `1 / (1 + exp (-s))` with the ones broadcast from the scalar constant
    `1.0`, is the logistic function of the element. -/
theorem logistic_spelled_at {T : Shape} (h : (⟨0, ![]⟩ : Shape).BroadcastsInDim T ![]) (s : FVec Ideal T .f32) (i : T.Idx) :
    Host.divf (broadcastInDim T ![] h (constant (F := Ideal) ⟨0, ![]⟩ .f32 0x3F800000#32))
      (addf (broadcastInDim T ![] h (constant (F := Ideal) ⟨0, ![]⟩ .f32 0x3F800000#32)) (Host.exp (Host.negf s))) i
      = Ideal.logistic (s i) := by
  rw [hostDivf_apply, addf_apply, broadcastInDim_scalar_apply, constant_apply, Ideal.ofBits_one_f32]
  rfl

end PlainProduct
-- ==== Proof.LibHostLayout.lean ====
/-
  Host-side layout operations and two host operations read at an index, over arrays of any extents: a vector laid as a
  single row, a single row repeated down the rows, a vector stood up as a column, a column repeated along the columns
  (each a broadcast that names which axes of the result the operand's axes become), one member cut out of a stack of
  matrices, the host's square root of an entry, and the host's sum over the entries of each row from an initial value
  that is zero, which over the extended reals is the sum of the row. Each lemma says which single entry (or which row)
  of the operand an entry of the result reads.
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Idealize.ShloMosaic.HostLayout

open Idealize.ShloMosaic Idealize.ShloMosaic.ValueIdx

variable {α : Type}

/-- A vector `[b]` laid as the single row `[1, b]` reads, at `(u, j)`, the vector at `j`. -/
theorem bcast_b_1b_apply {b : ℕ} (x : (⟨1, ![b]⟩ : Shape).Idx → α)
    (h : (⟨1, ![b]⟩ : Shape).BroadcastsInDim ⟨2, ![1, b]⟩ (![1] : Fin 1 → Fin 2)) (u : Fin 1) (j : Fin b) :
    broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- The single row `[1, b]` repeated down `a` rows reads, at `(p, j)`, the row at `j`. -/
theorem bcast_1b_ab_apply {a b : ℕ} (x : (⟨2, ![1, b]⟩ : Shape).Idx → α)
    (h : (⟨2, ![1, b]⟩ : Shape).BroadcastsInDim ⟨2, ![a, b]⟩ (![0, 1] : Fin 2 → Fin 2)) (p : Fin a) (j : Fin b) :
    broadcastInDim ⟨2, ![a, b]⟩ ![0, 1] h x (ix2 p j) = x (ix2 (0 : Fin 1) j) := by
  refine broadcastInDim_apply _ h x (ix2 p j) (ix2 (0 : Fin 1) j) fun ax => ?_
  match ax with
  | ⟨0, _⟩ => rfl
  | ⟨1, _⟩ =>
    show j.val = if b = 1 then 0 else j.val
    split
    · have := j.isLt; omega
    · rfl

/-- A vector `[a]` stood up as the column `[a, 1]` reads, at `(p, u)`, the vector at `p`. -/
theorem bcast_a_a1_apply {a : ℕ} (x : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A column `[a, 1]` repeated along `b` columns reads, at `(p, j)`, the column's entry of row `p`. -/
theorem bcast_a1_ab_apply {a b : ℕ} (x : (⟨2, ![a, 1]⟩ : Shape).Idx → α)
    (h : (⟨2, ![a, 1]⟩ : Shape).BroadcastsInDim ⟨2, ![a, b]⟩ (![0, 1] : Fin 2 → Fin 2)) (p : Fin a) (j : Fin b) :
    broadcastInDim ⟨2, ![a, b]⟩ ![0, 1] h x (ix2 p j) = x (ix2 p (0 : Fin 1)) := by
  refine broadcastInDim_apply _ h x (ix2 p j) (ix2 p (0 : Fin 1)) fun ax => ?_
  match ax with
  | ⟨0, _⟩ =>
    show p.val = if a = 1 then 0 else p.val
    split
    · have := p.isLt; omega
    · rfl
  | ⟨1, _⟩ => rfl

/-- Member `o` cut out of a stack `[n0, n1, n2]` reads, at `(u, p, q)`, the stack at `(o, p, q)`. -/
theorem slice3_axis0_apply {n0 n1 n2 : ℕ} (o : ℕ) (X : (⟨3, ![n0, n1, n2]⟩ : Shape).Idx → α)
    (h : (⟨3, ![n0, n1, n2]⟩ : Shape).Slices ![o, 0, 0] ⟨3, ![1, n1, n2]⟩)
    (u : Fin 1) (p : Fin n1) (q : Fin n2) (k : Fin n0) (hk : k.val = o) :
    extractStridedSlice ⟨3, ![1, n1, n2]⟩ ![o, 0, 0] X h (ix3 u p q) = X (ix3 k p q) :=
  extractStridedSlice_apply _ _ _ _ _ (fun ax => by
    match ax with
    | ⟨0, _⟩ =>
      show k.val = o + u.val
      have := u.isLt; omega
    | ⟨1, _⟩ => exact (Nat.zero_add _).symm
    | ⟨2, _⟩ => exact (Nat.zero_add _).symm)

/-- The host's square root at an index is the square root of the entry. -/
theorem hostSqrt_apply {s : Shape} {φ : FTy} (x : FVec Ideal s φ) (i : s.Idx) : Host.sqrt x i = Ideal.sqrt (x i) := rfl

/-- The host's sum over the rows' entries, from an initial value that is zero, read at row `p`: the sum of the row. -/
theorem hostRowSum_apply {a b : ℕ} {u : Shape} (x : FVec Ideal ⟨2, ![a, b]⟩ .f32) (init : u.Idx → Ideal .f32)
    (h' : (⟨2, ![a, b]⟩ : Shape).ReducesTo [1] ⟨1, ![a]⟩) (hu : 0 < u.numel) (h0 : init (Shape.Idx.first hu) = 0)
    (p : Fin a) : Host.reduceAdd x init h' hu (ix1 p) = ∑ k : Fin b, x (ix2 p k) := by
  have h : (⟨2, ![a, b]⟩ : Shape).Reduces [1] ⟨1, ![a]⟩ := ⟨h'.1, Nat.one_pos, h'.2⟩
  show Ideal.hostReduceAdd h' x _ (ix1 p) = _
  rw [Ideal.hostReduceAdd_single h' h, h0, zero_add]
  exact Finset.sum_congr rfl fun k _ => congrArg x (funext fun ax => Fin.ext (by
    match ax with
    | ⟨0, _⟩ => rfl
    | ⟨1, _⟩ => rfl))

end Idealize.ShloMosaic.HostLayout

end
-- ==== Proof.LibSplitAffine.lean ====
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«181442_j6949257085052_1_alg».proof.Proof.LibPlainProduct
import proofs.«181442_j6949257085052_1_alg».proof.Proof.LibHostLayout

/-!
# A linear layer on two inputs joined side by side, written as two products

Over the extended reals, for any sizes. `lin2 a b wa wb β` is the array whose entry `(r, t)` is
`(∑ c, a (r, c) * wa (c, t)) + (∑ c, b (r, c) * wb (c, t)) + β (0, t)`: two `m × k` inputs, each multiplied by its own
`k × n` weight matrix, the two products added, and a bias row added to every row.

* `tile_eq`: a kernel tile that narrows its four operands to a sixteen-bit format, multiplies each pair into a zero
  accumulator, adds the two products and adds a `[1, n]` bias row repeated down the rows computes `lin2`.
* `host_eq`: the host's layer on the two inputs joined along the columns — the `m × (k + k)` joined matrix times the
  transposed `n × (k + k)` weight matrix, plus the bias vector laid along every row — is `lin2` of the two inputs, the
  transposed left and right halves of the weight matrix, and the bias vector as a one-row matrix. The sum over the
  `k + k` joined columns splits into the sum over the first `k` and the sum over the last `k`; addition of extended
  reals is commutative and associative, so nothing has to be finite.
* `lin2At_congr_rows`: an entry of `lin2` depends on one row of each input only.
-/

noncomputable section

namespace SplitAffine

open Idealize.ShloMosaic Idealize.ShloMosaic.ValueIdx

/-- Entry `(r, t)` of the layer: row `r` of `a` against column `t` of `wa`, plus row `r` of `b` against column `t` of
    `wb`, plus the bias row at `t`. -/
def lin2At {m k n : ℕ} (a b : FVec Ideal ⟨2, ![m, k]⟩ .f32) (wa wb : FVec Ideal ⟨2, ![k, n]⟩ .f32)
    (β : FVec Ideal ⟨2, ![1, n]⟩ .f32) (r : Fin m) (t : Fin n) : Ideal .f32 :=
  ((∑ c : Fin k, a (ix2 r c) * wa (ix2 c t)) + ∑ c : Fin k, b (ix2 r c) * wb (ix2 c t)) + β (ix2 (0 : Fin 1) t)

/-- The layer as an array. -/
def lin2 {m k n : ℕ} (a b : FVec Ideal ⟨2, ![m, k]⟩ .f32) (wa wb : FVec Ideal ⟨2, ![k, n]⟩ .f32)
    (β : FVec Ideal ⟨2, ![1, n]⟩ .f32) : FVec Ideal ⟨2, ![m, n]⟩ .f32 :=
  fun i => lin2At a b wa wb β (i 0) (i 1)

theorem lin2_apply {m k n : ℕ} (a b : FVec Ideal ⟨2, ![m, k]⟩ .f32) (wa wb : FVec Ideal ⟨2, ![k, n]⟩ .f32)
    (β : FVec Ideal ⟨2, ![1, n]⟩ .f32) (r : Fin m) (t : Fin n) :
    lin2 a b wa wb β (ix2 r t) = lin2At a b wa wb β r t := rfl

/-- An entry of the layer reads one row of each input: two pairs of inputs (of possibly different heights) that agree on
    the rows read give the same entry. -/
theorem lin2At_congr_rows {m m' k n : ℕ} (a b : FVec Ideal ⟨2, ![m, k]⟩ .f32) (a' b' : FVec Ideal ⟨2, ![m', k]⟩ .f32)
    (wa wb : FVec Ideal ⟨2, ![k, n]⟩ .f32) (β : FVec Ideal ⟨2, ![1, n]⟩ .f32) (r : Fin m) (r' : Fin m') (t : Fin n)
    (ha : ∀ c : Fin k, a (ix2 r c) = a' (ix2 r' c)) (hb : ∀ c : Fin k, b (ix2 r c) = b' (ix2 r' c)) :
    lin2At a b wa wb β r t = lin2At a' b' wa wb β r' t := by
  have e1 : (∑ c : Fin k, a (ix2 r c) * wa (ix2 c t)) = ∑ c : Fin k, a' (ix2 r' c) * wa (ix2 c t) :=
    Finset.sum_congr rfl fun c _ => by rw [ha c]
  have e2 : (∑ c : Fin k, b (ix2 r c) * wb (ix2 c t)) = ∑ c : Fin k, b' (ix2 r' c) * wb (ix2 c t) :=
    Finset.sum_congr rfl fun c _ => by rw [hb c]
  unfold lin2At
  rw [e1, e2]

/-- A kernel tile: the four operands narrowed, each pair multiplied into a zero accumulator, the products added, the
    bias row repeated down the rows and added. -/
theorem tile_eq {m k n : ℕ} (d : DotDims ⟨2, ![m, k]⟩ ⟨2, ![k, n]⟩ ⟨2, ![m, n]⟩) (hd : d = DotDims.plain m k n)
    (X Y : FVec Ideal ⟨2, ![m, k]⟩ .f32) (WA WB : FVec Ideal ⟨2, ![k, n]⟩ .f32) (β : FVec Ideal ⟨2, ![1, n]⟩ .f32)
    (h1 h2 h3 h4 : FTy.bits .bf16 < FTy.bits .f32) (hb : (⟨2, ![1, n]⟩ : Shape).Broadcasts ⟨2, ![m, n]⟩) :
    addf (addf (matmul d none (truncf .bf16 X h1) (truncf .bf16 WA h2) (constant (F := Ideal) ⟨2, ![m, n]⟩ .f32 0x00000000#32))
        (matmul d none (truncf .bf16 Y h3) (truncf .bf16 WB h4) (constant (F := Ideal) ⟨2, ![m, n]⟩ .f32 0x00000000#32)))
      (broadcastTo ⟨2, ![m, n]⟩ β hb)
      = lin2 X Y WA WB β := by
  funext i
  obtain ⟨r, t, rfl⟩ : ∃ (r : Fin m) (t : Fin n), i = ix2 r t := ⟨i 0, i 1, eq_ix2 i⟩
  rw [lin2_apply, addf_apply, addf_apply, PlainProduct.matmul_at d hd none _ _ _ r t,
    PlainProduct.matmul_at d hd none _ _ _ r t, broadcastTo_1b_ab_apply, constant_apply, Ideal.ofBits_zero_f32,
    zero_add, zero_add]
  rfl

/-- The host's layer on the joined inputs is the layer on the two inputs with the weight matrix's two halves. -/
theorem host_eq {m k n K2 : ℕ} (hK : K2 = k + k)
    (a b : FVec Ideal ⟨2, ![m, k]⟩ .f32) (W : FVec Ideal ⟨2, ![n, K2]⟩ .f32) (bias : FVec Ideal ⟨1, ![n]⟩ .f32)
    (hc : Shape.Concatenates [(⟨2, ![m, k]⟩ : Shape), ⟨2, ![m, k]⟩] ⟨2, ![m, K2]⟩ 1)
    (ht : (⟨2, ![n, K2]⟩ : Shape).Transposes [1, 0] ⟨2, ![K2, n]⟩)
    (d : DotDims ⟨2, ![m, K2]⟩ ⟨2, ![K2, n]⟩ ⟨2, ![m, n]⟩) (hd : d = DotDims.plain m K2 n)
    (bc1 : (⟨1, ![n]⟩ : Shape).BroadcastsInDim ⟨2, ![1, n]⟩ (![1] : Fin 1 → Fin 2))
    (bc2 : (⟨2, ![1, n]⟩ : Shape).BroadcastsInDim ⟨2, ![m, n]⟩ (![0, 1] : Fin 2 → Fin 2))
    (hs0 : (⟨2, ![n, K2]⟩ : Shape).Slices ![0, 0] ⟨2, ![n, k]⟩)
    (hs1 : (⟨2, ![n, K2]⟩ : Shape).Slices ![0, k] ⟨2, ![n, k]⟩)
    (ht' : (⟨2, ![n, k]⟩ : Shape).Transposes [1, 0] ⟨2, ![k, n]⟩)
    (sc : (⟨1, ![n]⟩ : Shape).ShapeCasts ⟨2, ![1, n]⟩) :
    addf (Host.dotGeneral (F := Ideal) d none
          (concatenate ⟨2, ![m, K2]⟩ 1 [⟨⟨2, ![m, k]⟩, a⟩, ⟨⟨2, ![m, k]⟩, b⟩] hc)
          (transpose ⟨2, ![K2, n]⟩ [1, 0] W ht))
        (broadcastInDim ⟨2, ![m, n]⟩ ![0, 1] bc2 (broadcastInDim ⟨2, ![1, n]⟩ ![1] bc1 bias))
      = lin2 a b
          (transpose ⟨2, ![k, n]⟩ [1, 0] (extractStridedSlice ⟨2, ![n, k]⟩ ![0, 0] W hs0) ht')
          (transpose ⟨2, ![k, n]⟩ [1, 0] (extractStridedSlice ⟨2, ![n, k]⟩ ![0, k] W hs1) ht')
          (shapeCast ⟨2, ![1, n]⟩ bias sc) := by
  subst hK
  funext i
  obtain ⟨r, t, rfl⟩ : ∃ (r : Fin m) (t : Fin n), i = ix2 r t := ⟨i 0, i 1, eq_ix2 i⟩
  -- the bias: the vector laid as a row and repeated down the rows reads the vector at the column
  have hbias : broadcastInDim ⟨2, ![m, n]⟩ ![0, 1] bc2 (broadcastInDim ⟨2, ![1, n]⟩ ![1] bc1 bias) (ix2 r t)
      = shapeCast ⟨2, ![1, n]⟩ bias sc (ix2 (0 : Fin 1) t) := by
    rw [HostLayout.bcast_1b_ab_apply, HostLayout.bcast_b_1b_apply, shapeCast_a_1a_apply]
  -- the joined matrix at a column of the first half is the first input, at a column of the second half the second
  have hL : ∀ c : Fin k, concatenate ⟨2, ![m, k + k]⟩ 1 [⟨⟨2, ![m, k]⟩, a⟩, ⟨⟨2, ![m, k]⟩, b⟩] hc (ix2 r (Fin.castAdd k c))
      = a (ix2 r c) := fun c =>
    concatenate_pair_apply_left _ a b hc (ix2 r (Fin.castAdd k c)) rfl (ix2 r c) fun bx =>
      match bx with | ⟨0, _⟩ => rfl | ⟨1, _⟩ => rfl
  have hR : ∀ c : Fin k, concatenate ⟨2, ![m, k + k]⟩ 1 [⟨⟨2, ![m, k]⟩, a⟩, ⟨⟨2, ![m, k]⟩, b⟩] hc (ix2 r (Fin.natAdd k c))
      = b (ix2 r c) := fun c =>
    concatenate_pair_apply_right _ a b hc (ix2 r (Fin.natAdd k c)) rfl rfl (ix2 r c)
      (fun bx hbx => match bx, hbx with | ⟨0, _⟩, _ => rfl | ⟨1, _⟩, hbx => absurd rfl hbx)
      (Nat.add_comm c.val k)
  -- the transposed weight matrix at a row of either half is that half's slice, transposed
  have hWL : ∀ c : Fin k, transpose ⟨2, ![k + k, n]⟩ [1, 0] W ht (ix2 (Fin.castAdd k c) t)
      = transpose ⟨2, ![k, n]⟩ [1, 0] (extractStridedSlice ⟨2, ![n, k]⟩ ![0, 0] W hs0) ht' (ix2 c t) := fun c => by
    rw [transpose_ix2_apply, transpose_ix2_apply, slice2_axis1_apply 0 W hs0 t c (Fin.castAdd k c) (Nat.zero_add _).symm]
  have hWR : ∀ c : Fin k, transpose ⟨2, ![k + k, n]⟩ [1, 0] W ht (ix2 (Fin.natAdd k c) t)
      = transpose ⟨2, ![k, n]⟩ [1, 0] (extractStridedSlice ⟨2, ![n, k]⟩ ![0, k] W hs1) ht' (ix2 c t) := fun c => by
    rw [transpose_ix2_apply, transpose_ix2_apply, slice2_axis1_apply k W hs1 t c (Fin.natAdd k c) rfl]
  rw [lin2_apply, addf_apply, PlainProduct.dotGeneral_at d hd none _ _ r t, Fin.sum_univ_add, hbias]
  unfold lin2At
  simp only [hL, hR, hWL, hWR]

end SplitAffine

end
-- ==== Proof.Net.lean ====
import proofs.«181442_j6949257085052_1_alg».proof.Proof.Gen.KernelIdeal
import proofs.«181442_j6949257085052_1_alg».proof.Proof.LibSplitAffine

/-!
# The network the idealized kernel computes, as whole arrays

Over the extended reals. Each edge `e` has a source `row e` and a destination `col e` (the two rows of the index
argument, a negative index wrapped once by the number of nodes). With `lin2` the two-input linear layer:

* message: `msg = lin2 (x[row]) edge_attr …` from the first weight matrix's two halves and the first bias;
* mean over incoming edges: `aggr = (Σ_{col e = v} msg e) / max (#{e : col e = v}) 1`, the sums by scatter-add;
* update: `h = max (lin2 x aggr …) 0` from the second weight matrix and bias;
* score: `lin2 (h[row]) (h[col]) …` from the third weight matrix and bias.

The gathers, the scatter-adds and the division are the host's operations; they are kept as they are printed, since
the reference applies the same ones to the same index arrays.
-/

noncomputable section

namespace Cert.KernelIdeal.Net

open Cert.KernelIdeal Cert.KernelIdeal.Gen Idealize.ShloMosaic SplitAffine

/-- The edges' source nodes: row 0 of the index argument. -/
def rowOf (x1 : (⟨S2x1250000, .i32⟩ : BufTy).Contents (Elt Ideal)) : (⟨S1250000, .i32⟩ : BufTy).Contents (Elt Ideal) :=
  shapeCast _ (extractStridedSlice S1x1250000 ![0, 0] x1 slices_S2x1250000_S1x1250000_0_0) shapeCasts_S1x1250000_S1250000

/-- The edges' destination nodes: row 1 of the index argument. -/
def colOf (x1 : (⟨S2x1250000, .i32⟩ : BufTy).Contents (Elt Ideal)) : (⟨S1250000, .i32⟩ : BufTy).Contents (Elt Ideal) :=
  shapeCast _ (extractStridedSlice S1x1250000 ![1, 0] x1 slices_S2x1250000_S1x1250000_1_0) shapeCasts_S1x1250000_S1250000

/-- A node index made ready for a gather: a negative one wrapped by the number of nodes, then stood up as a column. -/
def wrap (v : (⟨S1250000, .i32⟩ : BufTy).Contents (Elt Ideal)) : (⟨S1250000x1, .i32⟩ : BufTy).Contents (Elt Ideal) :=
  broadcastInDim S1250000x1 ![0] bcast_S1250000_S1250000x1_0
    (select (cmpi .slt v (broadcastInDim S1250000 ![] bcast_S_S1250000 (constantI S_ 32 0#32)))
      (addi v (broadcastInDim S1250000 ![] bcast_S_S1250000 (constantI S_ 32 100000#32))) v)

/-- The rows of a node array at the edges' end points. -/
def take (x : (⟨S100000x64, .f32⟩ : BufTy).Contents (Elt Ideal)) (v : (⟨S1250000, .i32⟩ : BufTy).Contents (Elt Ideal)) :
    (⟨S1250000x64, .f32⟩ : BufTy).Contents (Elt Ideal) :=
  Host.gather gather_S100000x64_S1250000x1_S1250000x64_1_0_n_n_0_1_164 x (wrap v)

/-- A 64 × 128 weight matrix's left half, transposed. -/
def wLeft (W : (⟨S64x128, .f32⟩ : BufTy).Contents (Elt Ideal)) : (⟨S64x64, .f32⟩ : BufTy).Contents (Elt Ideal) :=
  transpose S64x64 [1, 0] (extractStridedSlice S64x64 ![0, 0] W slices_S64x128_S64x64_0_0) transposes_S64x64_S64x64_1_0

/-- A 64 × 128 weight matrix's right half, transposed. -/
def wRight (W : (⟨S64x128, .f32⟩ : BufTy).Contents (Elt Ideal)) : (⟨S64x64, .f32⟩ : BufTy).Contents (Elt Ideal) :=
  transpose S64x64 [1, 0] (extractStridedSlice S64x64 ![0, 64] W slices_S64x128_S64x64_0_64) transposes_S64x64_S64x64_1_0

/-- A bias vector as a one-row matrix. -/
def biasRow (b : (⟨S64, .f32⟩ : BufTy).Contents (Elt Ideal)) : (⟨S1x64, .f32⟩ : BufTy).Contents (Elt Ideal) :=
  shapeCast _ b shapeCasts_S64_S1x64

/-- The 2 × 128 score weights' left half, transposed. -/
def pLeft (W : (⟨S2x128, .f32⟩ : BufTy).Contents (Elt Ideal)) : (⟨S64x2, .f32⟩ : BufTy).Contents (Elt Ideal) :=
  transpose S64x2 [1, 0] (extractStridedSlice S2x64 ![0, 0] W slices_S2x128_S2x64_0_0) transposes_S2x64_S64x2_1_0

/-- The 2 × 128 score weights' right half, transposed. -/
def pRight (W : (⟨S2x128, .f32⟩ : BufTy).Contents (Elt Ideal)) : (⟨S64x2, .f32⟩ : BufTy).Contents (Elt Ideal) :=
  transpose S64x2 [1, 0] (extractStridedSlice S2x64 ![0, 64] W slices_S2x128_S2x64_0_64) transposes_S2x64_S64x2_1_0

/-- The score bias as a one-row matrix. -/
def pBiasRow (b : (⟨S2, .f32⟩ : BufTy).Contents (Elt Ideal)) : (⟨S1x2, .f32⟩ : BufTy).Contents (Elt Ideal) :=
  shapeCast _ b shapeCasts_S2_S1x2

/-- The messages along the edges. -/
def msg (x0 : (⟨S100000x64, .f32⟩ : BufTy).Contents (Elt Ideal)) (x1 : (⟨S2x1250000, .i32⟩ : BufTy).Contents (Elt Ideal))
    (x2 : (⟨S1250000x64, .f32⟩ : BufTy).Contents (Elt Ideal)) (x3 : (⟨S64x128, .f32⟩ : BufTy).Contents (Elt Ideal))
    (x4 : (⟨S64, .f32⟩ : BufTy).Contents (Elt Ideal)) : (⟨S1250000x64, .f32⟩ : BufTy).Contents (Elt Ideal) :=
  lin2 (m := 1250000) (k := 64) (n := 64) (take x0 (rowOf x1)) x2 (wLeft x3) (wRight x3) (biasRow x4)

/-- The mean of the messages arriving at each node (a node with no incoming edge divides by one). -/
def aggr (μ : (⟨S1250000x64, .f32⟩ : BufTy).Contents (Elt Ideal)) (x1 : (⟨S2x1250000, .i32⟩ : BufTy).Contents (Elt Ideal)) :
    (⟨S100000x64, .f32⟩ : BufTy).Contents (Elt Ideal) :=
  Host.divf
    (Host.scatterAdd scatter_S100000x64_S1250000x1_S1250000x64_1_0_0_1
      (broadcastInDim S100000x64 ![] bcast_S_S100000x64 (constant (F := Ideal) S_ .f32 0x00000000#32))
      (broadcastInDim S1250000x1 ![0] bcast_S1250000_S1250000x1_0 (colOf x1)) μ)
    (broadcastInDim S100000x64 ![0, 1] bcast_S100000x1_S100000x64_0_1
      (broadcastInDim S100000x1 ![0] bcast_S100000_S100000x1_0
        (maximumf
          (Host.scatterAdd scatter_S100000_S1250000x1_S1250000_n_0_0_1
            (broadcastInDim S100000 ![] bcast_S_S100000 (constant (F := Ideal) S_ .f32 0x00000000#32))
            (broadcastInDim S1250000x1 ![0] bcast_S1250000_S1250000x1_0 (colOf x1))
            (broadcastInDim S1250000 ![] bcast_S_S1250000 (constant (F := Ideal) S_ .f32 0x3F800000#32)))
          (broadcastInDim S100000 ![] bcast_S_S100000 (constant (F := Ideal) S_ .f32 0x3F800000#32)))))

/-- The updated node features, clamped below at zero. -/
def upd (x0 : (⟨S100000x64, .f32⟩ : BufTy).Contents (Elt Ideal)) (α : (⟨S100000x64, .f32⟩ : BufTy).Contents (Elt Ideal))
    (x5 : (⟨S64x128, .f32⟩ : BufTy).Contents (Elt Ideal)) (x6 : (⟨S64, .f32⟩ : BufTy).Contents (Elt Ideal)) :
    (⟨S100000x64, .f32⟩ : BufTy).Contents (Elt Ideal) :=
  maximumf (lin2 (m := 100000) (k := 64) (n := 64) x0 α (wLeft x5) (wRight x5) (biasRow x6))
    (broadcast S100000x64 (Scalar.ofBits (F := Ideal) .f32 0x00000000#32))

/-- The edges' scores from the updated features at both end points. -/
def score (h : (⟨S100000x64, .f32⟩ : BufTy).Contents (Elt Ideal)) (x1 : (⟨S2x1250000, .i32⟩ : BufTy).Contents (Elt Ideal))
    (x7 : (⟨S2x128, .f32⟩ : BufTy).Contents (Elt Ideal)) (x8 : (⟨S2, .f32⟩ : BufTy).Contents (Elt Ideal)) :
    (⟨S1250000x2, .f32⟩ : BufTy).Contents (Elt Ideal) :=
  lin2 (m := 1250000) (k := 64) (n := 2) (take h (rowOf x1)) (take h (colOf x1)) (pLeft x7) (pRight x7) (pBiasRow x8)

/-- The whole network. -/
def net (x0 : (⟨S100000x64, .f32⟩ : BufTy).Contents (Elt Ideal)) (x1 : (⟨S2x1250000, .i32⟩ : BufTy).Contents (Elt Ideal))
    (x2 : (⟨S1250000x64, .f32⟩ : BufTy).Contents (Elt Ideal)) (x3 : (⟨S64x128, .f32⟩ : BufTy).Contents (Elt Ideal))
    (x4 : (⟨S64, .f32⟩ : BufTy).Contents (Elt Ideal)) (x5 : (⟨S64x128, .f32⟩ : BufTy).Contents (Elt Ideal))
    (x6 : (⟨S64, .f32⟩ : BufTy).Contents (Elt Ideal)) (x7 : (⟨S2x128, .f32⟩ : BufTy).Contents (Elt Ideal))
    (x8 : (⟨S2, .f32⟩ : BufTy).Contents (Elt Ideal)) : (⟨S1250000x2, .f32⟩ : BufTy).Contents (Elt Ideal) :=
  score (upd x0 (aggr (msg x0 x1 x2 x3 x4) x1) x5 x6) x1 x7 x8

end Cert.KernelIdeal.Net

end
-- ==== Proof.LayerRows.lean ====
import proofs.«181442_j6949257085052_1_alg».proof.Proof.LibSplitAffine

/-!
# An entry of the two-input layer from the rows it reads

An entry `(r, t)` of `lin2 a b wa wb β` reads row `r` of `a` and of `b`, column `t` of the two weight matrices and entry
`t` of the bias row. So two instances of the layer, on inputs of different heights, agree at a pair of indices with the
same column as soon as the rows read agree and the weights and the bias are the same: this is how a tile of rows
computed from blocks of the inputs is a block of the layer computed from the whole inputs.
-/

noncomputable section

namespace SplitAffine

open Idealize.ShloMosaic Idealize.ShloMosaic.ValueIdx

theorem lin2_eq_of_rows {m m' k n : ℕ} (a b : FVec Ideal ⟨2, ![m, k]⟩ .f32) (a' b' : FVec Ideal ⟨2, ![m', k]⟩ .f32)
    (wa wb wa' wb' : FVec Ideal ⟨2, ![k, n]⟩ .f32) (β β' : FVec Ideal ⟨2, ![1, n]⟩ .f32)
    (j : (⟨2, ![m, n]⟩ : Shape).Idx) (J : (⟨2, ![m', n]⟩ : Shape).Idx)
    (hcol : (J 1).val = (j 1).val)
    (ha : ∀ c : Fin k, a (ix2 (j 0) c) = a' (ix2 (J 0) c))
    (hb : ∀ c : Fin k, b (ix2 (j 0) c) = b' (ix2 (J 0) c))
    (hwa : wa = wa') (hwb : wb = wb') (hβ : β = β') :
    lin2 a b wa wb β j = lin2 a' b' wa' wb' β' J := by
  subst hwa hwb hβ
  have h1 : J 1 = j 1 := Fin.ext hcol
  show lin2At a b wa wb β (j 0) (j 1) = lin2At a' b' wa wb β (J 0) (J 1)
  rw [h1]
  exact lin2At_congr_rows a b a' b' wa wb β (j 0) (J 0) (j 1) ha hb

end SplitAffine

end
-- ==== Proof.Region0.lean ====
import proofs.«181442_j6949257085052_1_alg».proof.Proof.KernelIdealFrameP
import proofs.«181442_j6949257085052_1_alg».proof.Proof.LayerRows
import Idealize.ShloMosaic.Lib.Pipeline.Value
import Idealize.ShloMosaic.Lib.Tactic

/-!
# The first call: messages along the edges

Region 0 of the idealized kernel runs over 125 tiles of 10000 edges. At tile `t` the body reads rows
`10000 t … 10000 t + 9999` of the gathered source features and of the edge attributes, the two 64 × 64 weight halves
and the one-row bias whole, and writes the same rows of the result. Over the extended reals the tile it writes is
`lin2` of what it read, and an entry of `lin2` reads one row of each input, so the rows written by tile `t` are rows of
`lin2` of the WHOLE arrays; the 125 tiles cover every row, hence the result array after the call is `lin2` of the whole
arrays as the region finds them.
-/

set_option maxRecDepth 16384

noncomputable section

namespace Cert.KernelIdeal.Layer0

open Cert.KernelIdeal Cert.KernelIdeal.Gen Cert.KernelIdeal.GenP SplitAffine
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The tile the body stores is the layer of the tiles it loaded. -/
theorem pay_eq (x0 x1 : Vec Ideal S10000x64 .f32) (x2 x3 : Vec Ideal S64x64 .f32) (x4 : Vec Ideal S1x64 .f32) :
    k0_pay1 x0 x1 x2 x3 x4 = lin2 (m := 10000) (k := 64) (n := 64) x0 x1 x2 x3 x4 := by
  unfold k0_pay1
  simp only [shapeCast_self]
  exact tile_eq dot_S10000x64_S64x64_S10000x64_1_0_0_1_n_n rfl x0 x1 x2 x3 x4 _ _ _ _ _

/-- The printed index maps over the grid: the three tiled windows sit at row block `t`, the three whole ones at 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Input window 0's block at tile `t` is rows `10000 t …` of its array. -/
theorem iblk_0 (c : Dev nD) (t : Fin cfg0.N) (x : S10000x64.Idx) (k : S1250000x64.Idx)
    (hk0 : (k 0).val = t.val * 10000 + (x 0).val) (hk1 : (k 1).val = (x 1).val) :
    (iblk0 V c 0 t : Vec Ideal S10000x64 .f32) x = (V c main_v10 : S1250000x64.Idx → Elt Ideal .f32) k := by
  obtain ⟨e0, e1, -⟩ := idx_facts t
  unfold iblk0
  rw [View.read_apply]
  show V c main_v10 _ = V c main_v10 _
  refine congrArg (V c main_v10) ?_
  funext a
  apply Fin.ext
  match a with
  | ⟨0, _⟩ => show win0_0.index t 0 * 10000 + 1 * (x 0).val = (k 0).val; rw [e0, hk0]; omega
  | ⟨1, _⟩ => show win0_0.index t 1 * 64 + 1 * (x 1).val = (k 1).val; rw [e1, hk1]; omega

/-- Input window 1's block at tile `t` is rows `10000 t …` of its array. -/
theorem iblk_1 (c : Dev nD) (t : Fin cfg0.N) (x : S10000x64.Idx) (k : S1250000x64.Idx)
    (hk0 : (k 0).val = t.val * 10000 + (x 0).val) (hk1 : (k 1).val = (x 1).val) :
    (iblk0 V c 1 t : Vec Ideal S10000x64 .f32) x = (V c main_arg2 : S1250000x64.Idx → Elt Ideal .f32) k := by
  obtain ⟨-, -, e0, e1, -⟩ := idx_facts t
  unfold iblk0
  rw [View.read_apply]
  show V c main_arg2 _ = V c main_arg2 _
  refine congrArg (V c main_arg2) ?_
  funext a
  apply Fin.ext
  match a with
  | ⟨0, _⟩ => show win0_1.index t 0 * 10000 + 1 * (x 0).val = (k 0).val; rw [e0, hk0]; omega
  | ⟨1, _⟩ => show win0_1.index t 1 * 64 + 1 * (x 1).val = (k 1).val; rw [e1, hk1]; omega

/-- The windows read whole: their one block is the array. -/
theorem iblk_2 (c : Dev nD) (t : Fin cfg0.N) :
    (iblk0 V c 2 t : Vec Ideal S64x64 .f32) = (V c main_v12 : S64x64.Idx → Elt Ideal .f32) := by
  obtain ⟨-, -, -, -, e0, e1, -⟩ := idx_facts t
  funext x
  unfold iblk0
  rw [View.read_apply]
  show V c main_v12 _ = V c main_v12 _
  refine congrArg (V c main_v12) ?_
  funext a
  apply Fin.ext
  match a with
  | ⟨0, _⟩ => show win0_2.index t 0 * 64 + 1 * (x 0).val = (x 0).val; rw [e0]; omega
  | ⟨1, _⟩ => show win0_2.index t 1 * 64 + 1 * (x 1).val = (x 1).val; rw [e1]; omega

theorem iblk_3 (c : Dev nD) (t : Fin cfg0.N) :
    (iblk0 V c 3 t : Vec Ideal S64x64 .f32) = (V c main_v14 : S64x64.Idx → Elt Ideal .f32) := by
  obtain ⟨-, -, -, -, -, -, e0, e1, -⟩ := idx_facts t
  funext x
  unfold iblk0
  rw [View.read_apply]
  show V c main_v14 _ = V c main_v14 _
  refine congrArg (V c main_v14) ?_
  funext a
  apply Fin.ext
  match a with
  | ⟨0, _⟩ => show win0_3.index t 0 * 64 + 1 * (x 0).val = (x 0).val; rw [e0]; omega
  | ⟨1, _⟩ => show win0_3.index t 1 * 64 + 1 * (x 1).val = (x 1).val; rw [e1]; omega

theorem iblk_4 (c : Dev nD) (t : Fin cfg0.N) :
    (iblk0 V c 4 t : Vec Ideal S1x64 .f32) = (V c main_v15 : S1x64.Idx → Elt Ideal .f32) := by
  obtain ⟨-, -, -, -, -, -, -, -, e0, e1, -⟩ := idx_facts t
  funext x
  unfold iblk0
  rw [View.read_apply]
  show V c main_v15 _ = V c main_v15 _
  refine congrArg (V c main_v15) ?_
  funext a
  apply Fin.ext
  match a with
  | ⟨0, _⟩ => show win0_4.index t 0 * 1 + 1 * (x 0).val = (x 0).val; rw [e0]; omega
  | ⟨1, _⟩ => show win0_4.index t 1 * 64 + 1 * (x 1).val = (x 1).val; rw [e1]; omega

/-- The layer of the whole arrays as region 0 finds them. -/
abbrev G (c : Dev nD) : S1250000x64.Idx → Elt Ideal .f32 :=
  lin2 (m := 1250000) (k := 64) (n := 64) (V c main_v10) (V c main_arg2) (V c main_v12) (V c main_v14) (V c main_v15)

/-- What tile `t` writes back is block `t` of the layer of the whole arrays. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S10000x64) hz, View.ld_unit_zero (S := S64x64) hz, View.ld_unit_zero (S := S1x64) hz]
  rw [pay_eq, iblk_2 V c t, iblk_3 V c t, iblk_4 V c t]
  obtain ⟨-, -, -, -, -, -, -, -, -, -, e0, e1⟩ := idx_facts t
  funext j
  rw [View.read_apply]
  refine lin2_eq_of_rows (m := 10000) (m' := 1250000) (k := 64) (n := 64) (iblk0 V c 0 t) (iblk0 V c 1 t) (V c main_v10) (V c main_arg2)
    (V c main_v12) (V c main_v14) (V c main_v12) (V c main_v14) (V c main_v15) (V c main_v15) j (((cfg0.win 5).blk t).view.emb j) ?_ ?_ ?_ rfl rfl rfl
  · show win0_5.index t 1 * 64 + 1 * (j 1).val = (j 1).val
    rw [e1]; omega
  · intro c'
    refine iblk_0 V c t _ _ ?_ rfl
    show win0_5.index t 0 * 10000 + 1 * (j 0).val = t.val * 10000 + (j 0).val
    rw [e0]; omega
  · intro c'
    refine iblk_1 V c t _ _ ?_ rfl
    show win0_5.index t 0 * 10000 + 1 * (j 0).val = t.val * 10000 + (j 0).val
    rw [e0]; omega

/-- An index of the result array is in tile `t`'s block iff each coordinate is in the block's range on its axis. -/
theorem mem_blk (t : Fin cfg0.N) (i : S1250000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v16).slice (win0_5.rect t)).set ↔ _
  rw [View.set_slice_whole, Rect.mem_set_unit]
  exact Iff.rfl

/-- THE RESULT ARRAY after region 0: the layer of the arrays the region finds. -/
theorem final (c : Dev nD) : (dat0 V c).arrAt 5 cfg0.N = G V c :=
  (dat0 V c).arrAt_eq_of_cover 5 (G V c) (fun t _ => flushed_eq V c t) fun i => by
    have hi0 : (i 0).val < 1250000 := (i 0).isLt
    have hi1 : (i 1).val < 64 := (i 1).isLt
    have hN : cfg0.N = 125 := N_0
    have ht : (i 0).val / 10000 < cfg0.N := by rw [hN]; omega
    refine ⟨⟨(i 0).val / 10000, ht⟩, flush0_5 _, ?_⟩
    rw [mem_blk]
    obtain ⟨-, -, -, -, -, -, -, -, -, -, e0, e1⟩ := idx_facts ⟨(i 0).val / 10000, ht⟩
    intro a
    match a with
    | ⟨0, _⟩ =>
      show win0_5.index ⟨(i 0).val / 10000, ht⟩ (0 : Fin 2) * 10000 ≤ (i 0).val ∧ (i 0).val < win0_5.index ⟨(i 0).val / 10000, ht⟩ (0 : Fin 2) * 10000 + 10000
      rw [e0]; show (i 0).val / 10000 * 10000 ≤ (i 0).val ∧ (i 0).val < (i 0).val / 10000 * 10000 + 10000; omega
    | ⟨1, _⟩ =>
      show win0_5.index ⟨(i 0).val / 10000, ht⟩ (1 : Fin 2) * 64 ≤ (i 1).val ∧ (i 1).val < win0_5.index ⟨(i 0).val / 10000, ht⟩ (1 : Fin 2) * 64 + 64
      rw [e1]; omega

end Cert.KernelIdeal.Layer0

end
-- ==== Proof.Region1.lean ====
import proofs.«181442_j6949257085052_1_alg».proof.Proof.KernelIdealFrameP
import proofs.«181442_j6949257085052_1_alg».proof.Proof.LayerRows
import Idealize.ShloMosaic.Lib.Pipeline.Value
import Idealize.ShloMosaic.Lib.Tactic

/-!
# The second call: the update of the node features

Region 1 of the idealized kernel runs over 10 tiles of 10000 nodes. At tile `t` the body reads rows
`10000 t … 10000 t + 9999` of the node features and of the aggregated messages, the two 64 × 64 weight halves and the
one-row bias whole, and writes the same rows of the result: the two-product layer of what it read, clamped below at
zero entry by entry. An entry of the layer reads one row of each input, so the rows written by tile `t` are rows of
the clamped layer of the WHOLE arrays; the 10 tiles cover every row.
-/

set_option maxRecDepth 16384

noncomputable section

namespace Cert.KernelIdeal.Layer1

open Cert.KernelIdeal Cert.KernelIdeal.Gen Cert.KernelIdeal.GenP SplitAffine
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The tile the body stores is the layer of the tiles it loaded, clamped below at zero. -/
theorem pay_eq (x0 x1 : Vec Ideal S10000x64 .f32) (x2 x3 : Vec Ideal S64x64 .f32) (x4 : Vec Ideal S1x64 .f32) :
    k1_pay1 x0 x1 x2 x3 x4 = maximumf (lin2 (m := 10000) (k := 64) (n := 64) x0 x1 x2 x3 x4)
      (broadcast S10000x64 (Scalar.ofBits (F := Ideal) .f32 0x00000000#32)) := by
  unfold k1_pay1
  simp only [shapeCast_self]
  exact congrArg (fun z => maximumf z (broadcast S10000x64 (Scalar.ofBits (F := Ideal) .f32 0x00000000#32)))
    (tile_eq dot_S10000x64_S64x64_S10000x64_1_0_0_1_n_n rfl x0 x1 x2 x3 x4 _ _ _ _ _)

/-- The printed index maps over the grid: the three tiled windows sit at row block `t`, the three whole ones at 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Input window 0's block at tile `t` is rows `10000 t …` of its array. -/
theorem iblk_0 (c : Dev nD) (t : Fin cfg1.N) (x : S10000x64.Idx) (k : S100000x64.Idx)
    (hk0 : (k 0).val = t.val * 10000 + (x 0).val) (hk1 : (k 1).val = (x 1).val) :
    (iblk1 V c 0 t : Vec Ideal S10000x64 .f32) x = (V c main_arg0 : S100000x64.Idx → Elt Ideal .f32) k := by
  obtain ⟨e0, e1, -⟩ := idx_facts t
  unfold iblk1
  rw [View.read_apply]
  show V c main_arg0 _ = V c main_arg0 _
  refine congrArg (V c main_arg0) ?_
  funext a
  apply Fin.ext
  match a with
  | ⟨0, _⟩ => show win1_0.index t 0 * 10000 + 1 * (x 0).val = (k 0).val; rw [e0, hk0]; omega
  | ⟨1, _⟩ => show win1_0.index t 1 * 64 + 1 * (x 1).val = (k 1).val; rw [e1, hk1]; omega

/-- Input window 1's block at tile `t` is rows `10000 t …` of its array. -/
theorem iblk_1 (c : Dev nD) (t : Fin cfg1.N) (x : S10000x64.Idx) (k : S100000x64.Idx)
    (hk0 : (k 0).val = t.val * 10000 + (x 0).val) (hk1 : (k 1).val = (x 1).val) :
    (iblk1 V c 1 t : Vec Ideal S10000x64 .f32) x = (V c main_v28 : S100000x64.Idx → Elt Ideal .f32) k := by
  obtain ⟨-, -, e0, e1, -⟩ := idx_facts t
  unfold iblk1
  rw [View.read_apply]
  show V c main_v28 _ = V c main_v28 _
  refine congrArg (V c main_v28) ?_
  funext a
  apply Fin.ext
  match a with
  | ⟨0, _⟩ => show win1_1.index t 0 * 10000 + 1 * (x 0).val = (k 0).val; rw [e0, hk0]; omega
  | ⟨1, _⟩ => show win1_1.index t 1 * 64 + 1 * (x 1).val = (k 1).val; rw [e1, hk1]; omega

/-- The windows read whole: their one block is the array. -/
theorem iblk_2 (c : Dev nD) (t : Fin cfg1.N) :
    (iblk1 V c 2 t : Vec Ideal S64x64 .f32) = (V c main_v30 : S64x64.Idx → Elt Ideal .f32) := by
  obtain ⟨-, -, -, -, e0, e1, -⟩ := idx_facts t
  funext x
  unfold iblk1
  rw [View.read_apply]
  show V c main_v30 _ = V c main_v30 _
  refine congrArg (V c main_v30) ?_
  funext a
  apply Fin.ext
  match a with
  | ⟨0, _⟩ => show win1_2.index t 0 * 64 + 1 * (x 0).val = (x 0).val; rw [e0]; omega
  | ⟨1, _⟩ => show win1_2.index t 1 * 64 + 1 * (x 1).val = (x 1).val; rw [e1]; omega

theorem iblk_3 (c : Dev nD) (t : Fin cfg1.N) :
    (iblk1 V c 3 t : Vec Ideal S64x64 .f32) = (V c main_v32 : S64x64.Idx → Elt Ideal .f32) := by
  obtain ⟨-, -, -, -, -, -, e0, e1, -⟩ := idx_facts t
  funext x
  unfold iblk1
  rw [View.read_apply]
  show V c main_v32 _ = V c main_v32 _
  refine congrArg (V c main_v32) ?_
  funext a
  apply Fin.ext
  match a with
  | ⟨0, _⟩ => show win1_3.index t 0 * 64 + 1 * (x 0).val = (x 0).val; rw [e0]; omega
  | ⟨1, _⟩ => show win1_3.index t 1 * 64 + 1 * (x 1).val = (x 1).val; rw [e1]; omega

theorem iblk_4 (c : Dev nD) (t : Fin cfg1.N) :
    (iblk1 V c 4 t : Vec Ideal S1x64 .f32) = (V c main_v33 : S1x64.Idx → Elt Ideal .f32) := by
  obtain ⟨-, -, -, -, -, -, -, -, e0, e1, -⟩ := idx_facts t
  funext x
  unfold iblk1
  rw [View.read_apply]
  show V c main_v33 _ = V c main_v33 _
  refine congrArg (V c main_v33) ?_
  funext a
  apply Fin.ext
  match a with
  | ⟨0, _⟩ => show win1_4.index t 0 * 1 + 1 * (x 0).val = (x 0).val; rw [e0]; omega
  | ⟨1, _⟩ => show win1_4.index t 1 * 64 + 1 * (x 1).val = (x 1).val; rw [e1]; omega

/-- The clamped layer of the whole arrays as region 1 finds them. -/
abbrev G (c : Dev nD) : S100000x64.Idx → Elt Ideal .f32 :=
  maximumf (lin2 (m := 100000) (k := 64) (n := 64) (V c main_arg0) (V c main_v28) (V c main_v30) (V c main_v32) (V c main_v33))
    (broadcast S100000x64 (Scalar.ofBits (F := Ideal) .f32 0x00000000#32))

/-- What tile `t` writes back is block `t` of the clamped layer of the whole arrays. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S10000x64) hz, View.ld_unit_zero (S := S64x64) hz, View.ld_unit_zero (S := S1x64) hz]
  rw [pay_eq, iblk_2 V c t, iblk_3 V c t, iblk_4 V c t]
  obtain ⟨-, -, -, -, -, -, -, -, -, -, e0, e1⟩ := idx_facts t
  funext j
  rw [View.read_apply]
  show max (lin2 (m := 10000) (k := 64) (n := 64) (iblk1 V c 0 t) (iblk1 V c 1 t) (V c main_v30) (V c main_v32) (V c main_v33) j) _
    = max (lin2 (m := 100000) (k := 64) (n := 64) (V c main_arg0) (V c main_v28) (V c main_v30) (V c main_v32) (V c main_v33) (((cfg1.win 5).blk t).view.emb j)) _
  refine congrArg (fun z => max z (Scalar.ofBits (F := Ideal) .f32 0x00000000#32)) ?_
  refine lin2_eq_of_rows (m := 10000) (m' := 100000) (k := 64) (n := 64) (iblk1 V c 0 t) (iblk1 V c 1 t) (V c main_arg0) (V c main_v28)
    (V c main_v30) (V c main_v32) (V c main_v30) (V c main_v32) (V c main_v33) (V c main_v33) j (((cfg1.win 5).blk t).view.emb j) ?_ ?_ ?_ rfl rfl rfl
  · show win1_5.index t 1 * 64 + 1 * (j 1).val = (j 1).val
    rw [e1]; omega
  · intro c'
    refine iblk_0 V c t _ _ ?_ rfl
    show win1_5.index t 0 * 10000 + 1 * (j 0).val = t.val * 10000 + (j 0).val
    rw [e0]; omega
  · intro c'
    refine iblk_1 V c t _ _ ?_ rfl
    show win1_5.index t 0 * 10000 + 1 * (j 0).val = t.val * 10000 + (j 0).val
    rw [e0]; omega

/-- An index of the result array is in tile `t`'s block iff each coordinate is in the block's range on its axis. -/
theorem mem_blk (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v34).slice (win1_5.rect t)).set ↔ _
  rw [View.set_slice_whole, Rect.mem_set_unit]
  exact Iff.rfl

/-- THE RESULT ARRAY after region 1: the clamped layer of the arrays the region finds. -/
theorem final (c : Dev nD) : (dat1 V c).arrAt 5 cfg1.N = G V c :=
  (dat1 V c).arrAt_eq_of_cover 5 (G V c) (fun t _ => flushed_eq V c t) fun i => by
    have hi0 : (i 0).val < 100000 := (i 0).isLt
    have hi1 : (i 1).val < 64 := (i 1).isLt
    have hN : cfg1.N = 10 := N_1
    have ht : (i 0).val / 10000 < cfg1.N := by rw [hN]; omega
    refine ⟨⟨(i 0).val / 10000, ht⟩, flush1_5 _, ?_⟩
    rw [mem_blk]
    obtain ⟨-, -, -, -, -, -, -, -, -, -, e0, e1⟩ := idx_facts ⟨(i 0).val / 10000, ht⟩
    intro a
    match a with
    | ⟨0, _⟩ =>
      show win1_5.index ⟨(i 0).val / 10000, ht⟩ (0 : Fin 2) * 10000 ≤ (i 0).val ∧ (i 0).val < win1_5.index ⟨(i 0).val / 10000, ht⟩ (0 : Fin 2) * 10000 + 10000
      rw [e0]; show (i 0).val / 10000 * 10000 ≤ (i 0).val ∧ (i 0).val < (i 0).val / 10000 * 10000 + 10000; omega
    | ⟨1, _⟩ =>
      show win1_5.index ⟨(i 0).val / 10000, ht⟩ (1 : Fin 2) * 64 ≤ (i 1).val ∧ (i 1).val < win1_5.index ⟨(i 0).val / 10000, ht⟩ (1 : Fin 2) * 64 + 64
      rw [e1]; omega

end Cert.KernelIdeal.Layer1

end
-- ==== Proof.Region2.lean ====
import proofs.«181442_j6949257085052_1_alg».proof.Proof.KernelIdealFrameP
import proofs.«181442_j6949257085052_1_alg».proof.Proof.LayerRows
import Idealize.ShloMosaic.Lib.Pipeline.Value
import Idealize.ShloMosaic.Lib.Tactic

/-!
# The third call: the scores of the edges

Region 2 of the idealized kernel runs over 125 tiles of 10000 edges. At tile `t` the body reads rows
`10000 t … 10000 t + 9999` of the updated features gathered at the edges' sources and at their destinations, the two
64 × 2 weight halves and the one-row bias whole, and writes the same rows of the two-column result: the two-product
layer of what it read. An entry of the layer reads one row of each input, so the rows written by tile `t` are rows of
the layer of the WHOLE arrays; the 125 tiles cover every row.
-/

set_option maxRecDepth 16384

noncomputable section

namespace Cert.KernelIdeal.Layer2

open Cert.KernelIdeal Cert.KernelIdeal.Gen Cert.KernelIdeal.GenP SplitAffine
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The tile the body stores is the layer of the tiles it loaded. -/
theorem pay_eq (x0 x1 : Vec Ideal S10000x64 .f32) (x2 x3 : Vec Ideal S64x2 .f32) (x4 : Vec Ideal S1x2 .f32) :
    k2_pay1 x0 x1 x2 x3 x4 = lin2 (m := 10000) (k := 64) (n := 2) x0 x1 x2 x3 x4 := by
  unfold k2_pay1
  simp only [shapeCast_self]
  exact tile_eq dot_S10000x64_S64x2_S10000x2_1_0_0_1_n_n rfl x0 x1 x2 x3 x4 _ _ _ _ _

/-- The printed index maps over the grid: the three tiled windows sit at row block `t`, the three whole ones at 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Input window 0's block at tile `t` is rows `10000 t …` of its array. -/
theorem iblk_0 (c : Dev nD) (t : Fin cfg2.N) (x : S10000x64.Idx) (k : S1250000x64.Idx)
    (hk0 : (k 0).val = t.val * 10000 + (x 0).val) (hk1 : (k 1).val = (x 1).val) :
    (iblk2 V c 0 t : Vec Ideal S10000x64 .f32) x = (V c main_v41 : S1250000x64.Idx → Elt Ideal .f32) k := by
  obtain ⟨e0, e1, -⟩ := idx_facts t
  unfold iblk2
  rw [View.read_apply]
  show V c main_v41 _ = V c main_v41 _
  refine congrArg (V c main_v41) ?_
  funext a
  apply Fin.ext
  match a with
  | ⟨0, _⟩ => show win2_0.index t 0 * 10000 + 1 * (x 0).val = (k 0).val; rw [e0, hk0]; omega
  | ⟨1, _⟩ => show win2_0.index t 1 * 64 + 1 * (x 1).val = (k 1).val; rw [e1, hk1]; omega

/-- Input window 1's block at tile `t` is rows `10000 t …` of its array. -/
theorem iblk_1 (c : Dev nD) (t : Fin cfg2.N) (x : S10000x64.Idx) (k : S1250000x64.Idx)
    (hk0 : (k 0).val = t.val * 10000 + (x 0).val) (hk1 : (k 1).val = (x 1).val) :
    (iblk2 V c 1 t : Vec Ideal S10000x64 .f32) x = (V c main_v48 : S1250000x64.Idx → Elt Ideal .f32) k := by
  obtain ⟨-, -, e0, e1, -⟩ := idx_facts t
  unfold iblk2
  rw [View.read_apply]
  show V c main_v48 _ = V c main_v48 _
  refine congrArg (V c main_v48) ?_
  funext a
  apply Fin.ext
  match a with
  | ⟨0, _⟩ => show win2_1.index t 0 * 10000 + 1 * (x 0).val = (k 0).val; rw [e0, hk0]; omega
  | ⟨1, _⟩ => show win2_1.index t 1 * 64 + 1 * (x 1).val = (k 1).val; rw [e1, hk1]; omega

/-- The windows read whole: their one block is the array. -/
theorem iblk_2 (c : Dev nD) (t : Fin cfg2.N) :
    (iblk2 V c 2 t : Vec Ideal S64x2 .f32) = (V c main_v50 : S64x2.Idx → Elt Ideal .f32) := by
  obtain ⟨-, -, -, -, e0, e1, -⟩ := idx_facts t
  funext x
  unfold iblk2
  rw [View.read_apply]
  show V c main_v50 _ = V c main_v50 _
  refine congrArg (V c main_v50) ?_
  funext a
  apply Fin.ext
  match a with
  | ⟨0, _⟩ => show win2_2.index t 0 * 64 + 1 * (x 0).val = (x 0).val; rw [e0]; omega
  | ⟨1, _⟩ => show win2_2.index t 1 * 2 + 1 * (x 1).val = (x 1).val; rw [e1]; omega

theorem iblk_3 (c : Dev nD) (t : Fin cfg2.N) :
    (iblk2 V c 3 t : Vec Ideal S64x2 .f32) = (V c main_v52 : S64x2.Idx → Elt Ideal .f32) := by
  obtain ⟨-, -, -, -, -, -, e0, e1, -⟩ := idx_facts t
  funext x
  unfold iblk2
  rw [View.read_apply]
  show V c main_v52 _ = V c main_v52 _
  refine congrArg (V c main_v52) ?_
  funext a
  apply Fin.ext
  match a with
  | ⟨0, _⟩ => show win2_3.index t 0 * 64 + 1 * (x 0).val = (x 0).val; rw [e0]; omega
  | ⟨1, _⟩ => show win2_3.index t 1 * 2 + 1 * (x 1).val = (x 1).val; rw [e1]; omega

theorem iblk_4 (c : Dev nD) (t : Fin cfg2.N) :
    (iblk2 V c 4 t : Vec Ideal S1x2 .f32) = (V c main_v53 : S1x2.Idx → Elt Ideal .f32) := by
  obtain ⟨-, -, -, -, -, -, -, -, e0, e1, -⟩ := idx_facts t
  funext x
  unfold iblk2
  rw [View.read_apply]
  show V c main_v53 _ = V c main_v53 _
  refine congrArg (V c main_v53) ?_
  funext a
  apply Fin.ext
  match a with
  | ⟨0, _⟩ => show win2_4.index t 0 * 1 + 1 * (x 0).val = (x 0).val; rw [e0]; omega
  | ⟨1, _⟩ => show win2_4.index t 1 * 2 + 1 * (x 1).val = (x 1).val; rw [e1]; omega

/-- The layer of the whole arrays as region 2 finds them. -/
abbrev G (c : Dev nD) : S1250000x2.Idx → Elt Ideal .f32 :=
  lin2 (m := 1250000) (k := 64) (n := 2) (V c main_v41) (V c main_v48) (V c main_v50) (V c main_v52) (V c main_v53)

/-- What tile `t` writes back is block `t` of the layer of the whole arrays. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S10000x64) hz, View.ld_unit_zero (S := S64x2) hz, View.ld_unit_zero (S := S1x2) hz]
  rw [pay_eq, iblk_2 V c t, iblk_3 V c t, iblk_4 V c t]
  obtain ⟨-, -, -, -, -, -, -, -, -, -, e0, e1⟩ := idx_facts t
  funext j
  rw [View.read_apply]
  refine lin2_eq_of_rows (m := 10000) (m' := 1250000) (k := 64) (n := 2) (iblk2 V c 0 t) (iblk2 V c 1 t) (V c main_v41) (V c main_v48)
    (V c main_v50) (V c main_v52) (V c main_v50) (V c main_v52) (V c main_v53) (V c main_v53) j (((cfg2.win 5).blk t).view.emb j) ?_ ?_ ?_ rfl rfl rfl
  · show win2_5.index t 1 * 2 + 1 * (j 1).val = (j 1).val
    rw [e1]; omega
  · intro c'
    refine iblk_0 V c t _ _ ?_ rfl
    show win2_5.index t 0 * 10000 + 1 * (j 0).val = t.val * 10000 + (j 0).val
    rw [e0]; omega
  · intro c'
    refine iblk_1 V c t _ _ ?_ rfl
    show win2_5.index t 0 * 10000 + 1 * (j 0).val = t.val * 10000 + (j 0).val
    rw [e0]; omega

/-- An index of the result array is in tile `t`'s block iff each coordinate is in the block's range on its axis. -/
theorem mem_blk (t : Fin cfg2.N) (i : S1250000x2.Idx) :
    i ∈ ((cfg2.win 5).blk t).view.set ↔ ∀ a : Fin 2, win2_5.index t a * S10000x2.size a ≤ (i a).val ∧ (i a).val < win2_5.index t a * S10000x2.size a + S10000x2.size a := by
  show i ∈ ((View.whole main_v54).slice (win2_5.rect t)).set ↔ _
  rw [View.set_slice_whole, Rect.mem_set_unit]
  exact Iff.rfl

/-- THE RESULT ARRAY after region 2: the layer of the arrays the region finds. -/
theorem final (c : Dev nD) : (dat2 V c).arrAt 5 cfg2.N = G V c :=
  (dat2 V c).arrAt_eq_of_cover 5 (G V c) (fun t _ => flushed_eq V c t) fun i => by
    have hi0 : (i 0).val < 1250000 := (i 0).isLt
    have hi1 : (i 1).val < 2 := (i 1).isLt
    have hN : cfg2.N = 125 := N_2
    have ht : (i 0).val / 10000 < cfg2.N := by rw [hN]; omega
    refine ⟨⟨(i 0).val / 10000, ht⟩, flush2_5 _, ?_⟩
    rw [mem_blk]
    obtain ⟨-, -, -, -, -, -, -, -, -, -, e0, e1⟩ := idx_facts ⟨(i 0).val / 10000, ht⟩
    intro a
    match a with
    | ⟨0, _⟩ =>
      show win2_5.index ⟨(i 0).val / 10000, ht⟩ (0 : Fin 2) * 10000 ≤ (i 0).val ∧ (i 0).val < win2_5.index ⟨(i 0).val / 10000, ht⟩ (0 : Fin 2) * 10000 + 10000
      rw [e0]; show (i 0).val / 10000 * 10000 ≤ (i 0).val ∧ (i 0).val < (i 0).val / 10000 * 10000 + 10000; omega
    | ⟨1, _⟩ =>
      show win2_5.index ⟨(i 0).val / 10000, ht⟩ (1 : Fin 2) * 2 ≤ (i 1).val ∧ (i 1).val < win2_5.index ⟨(i 0).val / 10000, ht⟩ (1 : Fin 2) * 2 + 2
      rw [e1]; omega

end Cert.KernelIdeal.Layer2

end
-- ==== Proof.Fold.lean ====
import proofs.«181442_j6949257085052_1_alg».proof.Proof.KernelIdealFrameP
import proofs.«181442_j6949257085052_1_alg».proof.Proof.Net
import proofs.«181442_j6949257085052_1_alg».proof.Proof.Region0
import proofs.«181442_j6949257085052_1_alg».proof.Proof.Region1
import proofs.«181442_j6949257085052_1_alg».proof.Proof.Region2
import Idealize.ShloMosaic.Lib.StableHlo.Run

/-!
# What each buffer holds at each boundary of @main

@main of the idealized kernel is six segments: host operations, the first call, host operations, the second call, host
operations, the third call. The generated frame names the buffers' contents at the boundaries `W0 … W6` (a host stretch
applies its operations; a call replaces its output array by what its tiles wrote and leaves every other buffer).
Here each buffer that a later segment reads is followed from the launch memory to the boundary where it is read:
the index rows and the arguments are never written, the three calls' outputs are the layers of `Net`, and the last
one, the result array, is the whole network of the nine arguments.
-/

set_option maxRecDepth 16384
-- reading a buffer back through a stretch of some twenty host operations rewrites once per operation passed
set_option maxHeartbeats 1000000

noncomputable section

namespace Cert.KernelIdeal.Fold

open Cert.KernelIdeal Cert.KernelIdeal.Gen Cert.KernelIdeal.GenP Cert.KernelIdeal.Net SplitAffine
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the first stretch of host operations -/

theorem at1_v10 : W1 m ρ c (Proc.devRef .tc main_v10)
    = take (m ((c : Thread nD τ).loc main_arg0)) (rowOf (m ((c : Thread nD τ).loc main_arg1))) := by
  show StableHlo.after hostOps0 (W0 m ρ c) (Proc.devRef .tc main_v10) = _
  dsimp only [hostOps0]
  after_results
  rfl

theorem at1_arg2 : W1 m ρ c (Proc.devRef .tc main_arg2) = m ((c : Thread nD τ).loc main_arg2) := by
  show StableHlo.after hostOps0 (W0 m ρ c) (Proc.devRef .tc main_arg2) = _
  dsimp only [hostOps0]
  after_results

theorem at1_v12 : W1 m ρ c (Proc.devRef .tc main_v12) = wLeft (m ((c : Thread nD τ).loc main_arg3)) := by
  show StableHlo.after hostOps0 (W0 m ρ c) (Proc.devRef .tc main_v12) = _
  dsimp only [hostOps0]
  after_results
  rfl

theorem at1_v14 : W1 m ρ c (Proc.devRef .tc main_v14) = wRight (m ((c : Thread nD τ).loc main_arg3)) := by
  show StableHlo.after hostOps0 (W0 m ρ c) (Proc.devRef .tc main_v14) = _
  dsimp only [hostOps0]
  after_results
  rfl

theorem at1_v15 : W1 m ρ c (Proc.devRef .tc main_v15) = biasRow (m ((c : Thread nD τ).loc main_arg4)) := by
  show StableHlo.after hostOps0 (W0 m ρ c) (Proc.devRef .tc main_v15) = _
  dsimp only [hostOps0]
  after_results
  rfl

theorem at1_v1 : W1 m ρ c (Proc.devRef .tc main_v1) = rowOf (m ((c : Thread nD τ).loc main_arg1)) := by
  show StableHlo.after hostOps0 (W0 m ρ c) (Proc.devRef .tc main_v1) = _
  dsimp only [hostOps0]
  after_results
  rfl

theorem at1_v3 : W1 m ρ c (Proc.devRef .tc main_v3) = colOf (m ((c : Thread nD τ).loc main_arg1)) := by
  show StableHlo.after hostOps0 (W0 m ρ c) (Proc.devRef .tc main_v3) = _
  dsimp only [hostOps0]
  after_results
  rfl

theorem at1_arg0 : W1 m ρ c (Proc.devRef .tc main_arg0) = m ((c : Thread nD τ).loc main_arg0) := by
  show StableHlo.after hostOps0 (W0 m ρ c) (Proc.devRef .tc main_arg0) = _
  dsimp only [hostOps0]
  after_results

theorem at1_arg5 : W1 m ρ c (Proc.devRef .tc main_arg5) = m ((c : Thread nD τ).loc main_arg5) := by
  show StableHlo.after hostOps0 (W0 m ρ c) (Proc.devRef .tc main_arg5) = _
  dsimp only [hostOps0]
  after_results

theorem at1_arg6 : W1 m ρ c (Proc.devRef .tc main_arg6) = m ((c : Thread nD τ).loc main_arg6) := by
  show StableHlo.after hostOps0 (W0 m ρ c) (Proc.devRef .tc main_arg6) = _
  dsimp only [hostOps0]
  after_results

theorem at1_arg7 : W1 m ρ c (Proc.devRef .tc main_arg7) = m ((c : Thread nD τ).loc main_arg7) := by
  show StableHlo.after hostOps0 (W0 m ρ c) (Proc.devRef .tc main_arg7) = _
  dsimp only [hostOps0]
  after_results

theorem at1_arg8 : W1 m ρ c (Proc.devRef .tc main_arg8) = m ((c : Thread nD τ).loc main_arg8) := by
  show StableHlo.after hostOps0 (W0 m ρ c) (Proc.devRef .tc main_arg8) = _
  dsimp only [hostOps0]
  after_results

/-! ## After the first call -/

/-- The first call's output: the messages. -/
theorem at2_v16 : W2 m ρ c (Proc.devRef .tc main_v16)
    = msg (m ((c : Thread nD τ).loc main_arg0)) (m ((c : Thread nD τ).loc main_arg1)) (m ((c : Thread nD τ).loc main_arg2))
        (m ((c : Thread nD τ).loc main_arg3)) (m ((c : Thread nD τ).loc main_arg4)) := by
  refine (W2_arr m ρ c 5).trans ((Layer0.final (V1 m ρ) c).trans ?_)
  show lin2 (m := 1250000) (k := 64) (n := 64) (W1 m ρ c (Proc.devRef .tc main_v10)) (W1 m ρ c (Proc.devRef .tc main_arg2))
      (W1 m ρ c (Proc.devRef .tc main_v12)) (W1 m ρ c (Proc.devRef .tc main_v14)) (W1 m ρ c (Proc.devRef .tc main_v15)) = _
  rw [at1_v10, at1_arg2, at1_v12, at1_v14, at1_v15]
  rfl

theorem at2_v1 : W2 m ρ c (Proc.devRef .tc main_v1) = rowOf (m ((c : Thread nD τ).loc main_arg1)) :=
  (W2_of_ne m ρ c main_v1 (by decide)).trans (at1_v1 m ρ c)
theorem at2_v3 : W2 m ρ c (Proc.devRef .tc main_v3) = colOf (m ((c : Thread nD τ).loc main_arg1)) :=
  (W2_of_ne m ρ c main_v3 (by decide)).trans (at1_v3 m ρ c)
theorem at2_arg0 : W2 m ρ c (Proc.devRef .tc main_arg0) = m ((c : Thread nD τ).loc main_arg0) :=
  (W2_of_ne m ρ c main_arg0 (by decide)).trans (at1_arg0 m ρ c)
theorem at2_arg5 : W2 m ρ c (Proc.devRef .tc main_arg5) = m ((c : Thread nD τ).loc main_arg5) :=
  (W2_of_ne m ρ c main_arg5 (by decide)).trans (at1_arg5 m ρ c)
theorem at2_arg6 : W2 m ρ c (Proc.devRef .tc main_arg6) = m ((c : Thread nD τ).loc main_arg6) :=
  (W2_of_ne m ρ c main_arg6 (by decide)).trans (at1_arg6 m ρ c)
theorem at2_arg7 : W2 m ρ c (Proc.devRef .tc main_arg7) = m ((c : Thread nD τ).loc main_arg7) :=
  (W2_of_ne m ρ c main_arg7 (by decide)).trans (at1_arg7 m ρ c)
theorem at2_arg8 : W2 m ρ c (Proc.devRef .tc main_arg8) = m ((c : Thread nD τ).loc main_arg8) :=
  (W2_of_ne m ρ c main_arg8 (by decide)).trans (at1_arg8 m ρ c)

/-! ## After the second stretch of host operations -/

theorem at3_arg0 : W3 m ρ c (Proc.devRef .tc main_arg0) = m ((c : Thread nD τ).loc main_arg0) := by
  show StableHlo.after hostOps1 (W2 m ρ c) (Proc.devRef .tc main_arg0) = _
  dsimp only [hostOps1]
  after_results
  exact at2_arg0 m ρ c

/-- The second call's second input: the mean of the messages arriving at each node. -/
theorem at3_v28 : W3 m ρ c (Proc.devRef .tc main_v28)
    = aggr (msg (m ((c : Thread nD τ).loc main_arg0)) (m ((c : Thread nD τ).loc main_arg1)) (m ((c : Thread nD τ).loc main_arg2))
        (m ((c : Thread nD τ).loc main_arg3)) (m ((c : Thread nD τ).loc main_arg4))) (m ((c : Thread nD τ).loc main_arg1)) := by
  show StableHlo.after hostOps1 (W2 m ρ c) (Proc.devRef .tc main_v28) = _
  dsimp only [hostOps1]
  after_results
  rw [at2_v16, at2_v3]
  rfl

theorem at3_v30 : W3 m ρ c (Proc.devRef .tc main_v30) = wLeft (m ((c : Thread nD τ).loc main_arg5)) := by
  show StableHlo.after hostOps1 (W2 m ρ c) (Proc.devRef .tc main_v30) = _
  dsimp only [hostOps1]
  after_results
  rw [at2_arg5]
  rfl

theorem at3_v32 : W3 m ρ c (Proc.devRef .tc main_v32) = wRight (m ((c : Thread nD τ).loc main_arg5)) := by
  show StableHlo.after hostOps1 (W2 m ρ c) (Proc.devRef .tc main_v32) = _
  dsimp only [hostOps1]
  after_results
  rw [at2_arg5]
  rfl

theorem at3_v33 : W3 m ρ c (Proc.devRef .tc main_v33) = biasRow (m ((c : Thread nD τ).loc main_arg6)) := by
  show StableHlo.after hostOps1 (W2 m ρ c) (Proc.devRef .tc main_v33) = _
  dsimp only [hostOps1]
  after_results
  rw [at2_arg6]
  rfl

theorem at3_v1 : W3 m ρ c (Proc.devRef .tc main_v1) = rowOf (m ((c : Thread nD τ).loc main_arg1)) := by
  show StableHlo.after hostOps1 (W2 m ρ c) (Proc.devRef .tc main_v1) = _
  dsimp only [hostOps1]
  after_results
  exact at2_v1 m ρ c

theorem at3_v3 : W3 m ρ c (Proc.devRef .tc main_v3) = colOf (m ((c : Thread nD τ).loc main_arg1)) := by
  show StableHlo.after hostOps1 (W2 m ρ c) (Proc.devRef .tc main_v3) = _
  dsimp only [hostOps1]
  after_results
  exact at2_v3 m ρ c

theorem at3_arg7 : W3 m ρ c (Proc.devRef .tc main_arg7) = m ((c : Thread nD τ).loc main_arg7) := by
  show StableHlo.after hostOps1 (W2 m ρ c) (Proc.devRef .tc main_arg7) = _
  dsimp only [hostOps1]
  after_results
  exact at2_arg7 m ρ c

theorem at3_arg8 : W3 m ρ c (Proc.devRef .tc main_arg8) = m ((c : Thread nD τ).loc main_arg8) := by
  show StableHlo.after hostOps1 (W2 m ρ c) (Proc.devRef .tc main_arg8) = _
  dsimp only [hostOps1]
  after_results
  exact at2_arg8 m ρ c

/-! ## After the second call -/

/-- The second call's output: the updated node features. -/
theorem at4_v34 : W4 m ρ c (Proc.devRef .tc main_v34)
    = upd (m ((c : Thread nD τ).loc main_arg0))
        (aggr (msg (m ((c : Thread nD τ).loc main_arg0)) (m ((c : Thread nD τ).loc main_arg1)) (m ((c : Thread nD τ).loc main_arg2))
          (m ((c : Thread nD τ).loc main_arg3)) (m ((c : Thread nD τ).loc main_arg4))) (m ((c : Thread nD τ).loc main_arg1)))
        (m ((c : Thread nD τ).loc main_arg5)) (m ((c : Thread nD τ).loc main_arg6)) := by
  refine (W4_arr m ρ c 5).trans ((Layer1.final (V3 m ρ) c).trans ?_)
  show maximumf (lin2 (m := 100000) (k := 64) (n := 64) (W3 m ρ c (Proc.devRef .tc main_arg0)) (W3 m ρ c (Proc.devRef .tc main_v28))
      (W3 m ρ c (Proc.devRef .tc main_v30)) (W3 m ρ c (Proc.devRef .tc main_v32)) (W3 m ρ c (Proc.devRef .tc main_v33)))
      (broadcast S100000x64 (Scalar.ofBits (F := Ideal) .f32 0x00000000#32)) = _
  rw [at3_arg0, at3_v28, at3_v30, at3_v32, at3_v33]
  rfl

theorem at4_v1 : W4 m ρ c (Proc.devRef .tc main_v1) = rowOf (m ((c : Thread nD τ).loc main_arg1)) :=
  (W4_of_ne m ρ c main_v1 (by decide)).trans (at3_v1 m ρ c)
theorem at4_v3 : W4 m ρ c (Proc.devRef .tc main_v3) = colOf (m ((c : Thread nD τ).loc main_arg1)) :=
  (W4_of_ne m ρ c main_v3 (by decide)).trans (at3_v3 m ρ c)
theorem at4_arg7 : W4 m ρ c (Proc.devRef .tc main_arg7) = m ((c : Thread nD τ).loc main_arg7) :=
  (W4_of_ne m ρ c main_arg7 (by decide)).trans (at3_arg7 m ρ c)
theorem at4_arg8 : W4 m ρ c (Proc.devRef .tc main_arg8) = m ((c : Thread nD τ).loc main_arg8) :=
  (W4_of_ne m ρ c main_arg8 (by decide)).trans (at3_arg8 m ρ c)

/-! ## After the third stretch of host operations -/

theorem at5_v41 : W5 m ρ c (Proc.devRef .tc main_v41)
    = take (W4 m ρ c (Proc.devRef .tc main_v34)) (rowOf (m ((c : Thread nD τ).loc main_arg1))) := by
  show StableHlo.after hostOps2 (W4 m ρ c) (Proc.devRef .tc main_v41) = _
  dsimp only [hostOps2]
  after_results
  rw [at4_v1]
  rfl

theorem at5_v48 : W5 m ρ c (Proc.devRef .tc main_v48)
    = take (W4 m ρ c (Proc.devRef .tc main_v34)) (colOf (m ((c : Thread nD τ).loc main_arg1))) := by
  show StableHlo.after hostOps2 (W4 m ρ c) (Proc.devRef .tc main_v48) = _
  dsimp only [hostOps2]
  after_results
  rw [at4_v3]
  rfl

theorem at5_v50 : W5 m ρ c (Proc.devRef .tc main_v50) = pLeft (m ((c : Thread nD τ).loc main_arg7)) := by
  show StableHlo.after hostOps2 (W4 m ρ c) (Proc.devRef .tc main_v50) = _
  dsimp only [hostOps2]
  after_results
  rw [at4_arg7]
  rfl

theorem at5_v52 : W5 m ρ c (Proc.devRef .tc main_v52) = pRight (m ((c : Thread nD τ).loc main_arg7)) := by
  show StableHlo.after hostOps2 (W4 m ρ c) (Proc.devRef .tc main_v52) = _
  dsimp only [hostOps2]
  after_results
  rw [at4_arg7]
  rfl

theorem at5_v53 : W5 m ρ c (Proc.devRef .tc main_v53) = pBiasRow (m ((c : Thread nD τ).loc main_arg8)) := by
  show StableHlo.after hostOps2 (W4 m ρ c) (Proc.devRef .tc main_v53) = _
  dsimp only [hostOps2]
  after_results
  rw [at4_arg8]
  rfl

/-! ## After the third call: the result -/

/-- The result array after the run is the network of the nine arguments. -/
theorem result : W6 m ρ c (Proc.devRef .tc main_v54)
    = net (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (W6_arr m ρ c 5).trans ((Layer2.final (V5 m ρ) c).trans ?_)
  show lin2 (m := 1250000) (k := 64) (n := 2) (W5 m ρ c (Proc.devRef .tc main_v41)) (W5 m ρ c (Proc.devRef .tc main_v48))
      (W5 m ρ c (Proc.devRef .tc main_v50)) (W5 m ρ c (Proc.devRef .tc main_v52)) (W5 m ρ c (Proc.devRef .tc main_v53)) = _
  rw [at5_v41, at5_v48, at5_v50, at5_v52, at5_v53, at4_v34]
  rfl

end Cert.KernelIdeal.Fold

end
-- ==== Proof.RefNet.lean ====
import proofs.«181442_j6949257085052_1_alg».proof.Proof.Gen.ReferenceIdeal.Read
import proofs.«181442_j6949257085052_1_alg».proof.Proof.Net
import proofs.«181442_j6949257085052_1_alg».proof.Proof.LibSplitAffine

/-!
# The reference computes the same network

The reference joins the two inputs of each layer side by side and multiplies by the whole transposed weight matrix;
`SplitAffine.host_eq` rewrites each such layer into the two-product form `lin2` with the weight matrix's two halves.
Everything between the layers — the wrapped index columns, the gathers, the scatter-adds, the division by the clamped
counts — is the same host operation applied to the same arrays in both programs.
-/

set_option maxRecDepth 16384

noncomputable section

namespace Cert.ReferenceIdeal.RefNet

open Idealize.ShloMosaic SplitAffine
open Cert.ReferenceIdeal.Read

/-- The reference's messages are the network's. -/
theorem msg_eq (x0 : (⟨Cert.ReferenceIdeal.S100000x64, .f32⟩ : BufTy).Contents (Elt Ideal)) (x1 : (⟨Cert.ReferenceIdeal.S2x1250000, .i32⟩ : BufTy).Contents (Elt Ideal))
    (x2 : (⟨Cert.ReferenceIdeal.S1250000x64, .f32⟩ : BufTy).Contents (Elt Ideal)) (x3 : (⟨Cert.ReferenceIdeal.S64x128, .f32⟩ : BufTy).Contents (Elt Ideal))
    (x4 : (⟨Cert.ReferenceIdeal.S64, .f32⟩ : BufTy).Contents (Elt Ideal)) :
    val_main_v16 (F := Ideal) x0 x1 x2 x3 x4 = Cert.KernelIdeal.Net.msg x0 x1 x2 x3 x4 := by
  unfold val_main_v16 val_main_v13 val_main_v15 val_main_v14 val_main_v11 val_main_v12
  refine (SplitAffine.host_eq (m := 1250000) (k := 64) (n := 64) (K2 := 128) rfl (val_main_v10 (F := Ideal) x0 x1) x2 x3 x4
    _ _ Cert.ReferenceIdeal.dot_S1250000x128_S128x64_S1250000x64_1_0_0_1_n_n rfl _ _
    Cert.KernelIdeal.Gen.slices_S64x128_S64x64_0_0 Cert.KernelIdeal.Gen.slices_S64x128_S64x64_0_64
    Cert.KernelIdeal.Gen.transposes_S64x64_S64x64_1_0 Cert.KernelIdeal.Gen.shapeCasts_S64_S1x64).trans ?_
  rfl

/-- The reference's mean aggregation is the network's, of the reference's messages. -/
theorem aggr_eq (x0 : (⟨Cert.ReferenceIdeal.S100000x64, .f32⟩ : BufTy).Contents (Elt Ideal)) (x1 : (⟨Cert.ReferenceIdeal.S2x1250000, .i32⟩ : BufTy).Contents (Elt Ideal))
    (x2 : (⟨Cert.ReferenceIdeal.S1250000x64, .f32⟩ : BufTy).Contents (Elt Ideal)) (x3 : (⟨Cert.ReferenceIdeal.S64x128, .f32⟩ : BufTy).Contents (Elt Ideal))
    (x4 : (⟨Cert.ReferenceIdeal.S64, .f32⟩ : BufTy).Contents (Elt Ideal)) :
    val_main_v28 (F := Ideal) x0 x1 x2 x3 x4 = Cert.KernelIdeal.Net.aggr (val_main_v16 (F := Ideal) x0 x1 x2 x3 x4) x1 := by
  rfl

/-- The reference's updated features are the network's, of the reference's aggregation. -/
theorem upd_eq (x0 : (⟨Cert.ReferenceIdeal.S100000x64, .f32⟩ : BufTy).Contents (Elt Ideal)) (x1 : (⟨Cert.ReferenceIdeal.S2x1250000, .i32⟩ : BufTy).Contents (Elt Ideal))
    (x2 : (⟨Cert.ReferenceIdeal.S1250000x64, .f32⟩ : BufTy).Contents (Elt Ideal)) (x3 : (⟨Cert.ReferenceIdeal.S64x128, .f32⟩ : BufTy).Contents (Elt Ideal))
    (x4 : (⟨Cert.ReferenceIdeal.S64, .f32⟩ : BufTy).Contents (Elt Ideal)) (x5 : (⟨Cert.ReferenceIdeal.S64x128, .f32⟩ : BufTy).Contents (Elt Ideal)) (x6 : (⟨Cert.ReferenceIdeal.S64, .f32⟩ : BufTy).Contents (Elt Ideal)) :
    val_main_v35 (F := Ideal) x0 x1 x2 x3 x4 x5 x6
      = Cert.KernelIdeal.Net.upd x0 (val_main_v28 (F := Ideal) x0 x1 x2 x3 x4) x5 x6 := by
  refine (congrArg (fun y => maximumf y (val_main_call0_v0 (F := Ideal)))
    (SplitAffine.host_eq (m := 100000) (k := 64) (n := 64) (K2 := 128) rfl x0 (val_main_v28 (F := Ideal) x0 x1 x2 x3 x4) x5 x6
      Cert.ReferenceIdeal.Gen.concatenates_S100000x64_S100000x64_S100000x128_d1 Cert.ReferenceIdeal.Gen.transposes_S64x128_S128x64_1_0
      Cert.ReferenceIdeal.dot_S100000x128_S128x64_S100000x64_1_0_0_1_n_n rfl Cert.ReferenceIdeal.Gen.bcast_S64_S1x64_1 Cert.ReferenceIdeal.Gen.bcast_S1x64_S100000x64_0_1
      Cert.KernelIdeal.Gen.slices_S64x128_S64x64_0_0 Cert.KernelIdeal.Gen.slices_S64x128_S64x64_0_64
      Cert.KernelIdeal.Gen.transposes_S64x64_S64x64_1_0 Cert.KernelIdeal.Gen.shapeCasts_S64_S1x64)).trans ?_
  funext i
  rfl

/-- The reference's scores are the network's, of the reference's updated features. -/
theorem score_eq (x0 : (⟨Cert.ReferenceIdeal.S100000x64, .f32⟩ : BufTy).Contents (Elt Ideal)) (x1 : (⟨Cert.ReferenceIdeal.S2x1250000, .i32⟩ : BufTy).Contents (Elt Ideal))
    (x2 : (⟨Cert.ReferenceIdeal.S1250000x64, .f32⟩ : BufTy).Contents (Elt Ideal)) (x3 : (⟨Cert.ReferenceIdeal.S64x128, .f32⟩ : BufTy).Contents (Elt Ideal))
    (x4 : (⟨Cert.ReferenceIdeal.S64, .f32⟩ : BufTy).Contents (Elt Ideal)) (x5 : (⟨Cert.ReferenceIdeal.S64x128, .f32⟩ : BufTy).Contents (Elt Ideal)) (x6 : (⟨Cert.ReferenceIdeal.S64, .f32⟩ : BufTy).Contents (Elt Ideal)) (x7 : (⟨Cert.ReferenceIdeal.S2x128, .f32⟩ : BufTy).Contents (Elt Ideal)) (x8 : (⟨Cert.ReferenceIdeal.S2, .f32⟩ : BufTy).Contents (Elt Ideal)) :
    val_main_v55 (F := Ideal) x0 x1 x2 x3 x4 x5 x6 x7 x8
      = Cert.KernelIdeal.Net.score (val_main_v35 (F := Ideal) x0 x1 x2 x3 x4 x5 x6) x1 x7 x8 := by
  unfold val_main_v55 val_main_v52 val_main_v54 val_main_v53 val_main_v50 val_main_v51
  refine (SplitAffine.host_eq (m := 1250000) (k := 64) (n := 2) (K2 := 128) rfl
    (val_main_v42 (F := Ideal) x0 x1 x2 x3 x4 x5 x6) (val_main_v49 (F := Ideal) x0 x1 x2 x3 x4 x5 x6) x7 x8
    _ _ Cert.ReferenceIdeal.dot_S1250000x128_S128x2_S1250000x2_1_0_0_1_n_n rfl _ _
    Cert.KernelIdeal.Gen.slices_S2x128_S2x64_0_0 Cert.KernelIdeal.Gen.slices_S2x128_S2x64_0_64
    Cert.KernelIdeal.Gen.transposes_S2x64_S64x2_1_0 Cert.KernelIdeal.Gen.shapeCasts_S2_S1x2).trans ?_
  rfl

/-- The reference's result is the network of the nine arguments. -/
theorem ref_eq (x0 : (⟨Cert.ReferenceIdeal.S100000x64, .f32⟩ : BufTy).Contents (Elt Ideal)) (x1 : (⟨Cert.ReferenceIdeal.S2x1250000, .i32⟩ : BufTy).Contents (Elt Ideal))
    (x2 : (⟨Cert.ReferenceIdeal.S1250000x64, .f32⟩ : BufTy).Contents (Elt Ideal)) (x3 : (⟨Cert.ReferenceIdeal.S64x128, .f32⟩ : BufTy).Contents (Elt Ideal))
    (x4 : (⟨Cert.ReferenceIdeal.S64, .f32⟩ : BufTy).Contents (Elt Ideal)) (x5 : (⟨Cert.ReferenceIdeal.S64x128, .f32⟩ : BufTy).Contents (Elt Ideal)) (x6 : (⟨Cert.ReferenceIdeal.S64, .f32⟩ : BufTy).Contents (Elt Ideal)) (x7 : (⟨Cert.ReferenceIdeal.S2x128, .f32⟩ : BufTy).Contents (Elt Ideal)) (x8 : (⟨Cert.ReferenceIdeal.S2, .f32⟩ : BufTy).Contents (Elt Ideal)) :
    val_main_v55 (F := Ideal) x0 x1 x2 x3 x4 x5 x6 x7 x8 = Cert.KernelIdeal.Net.net x0 x1 x2 x3 x4 x5 x6 x7 x8 := by
  rw [score_eq, upd_eq, aggr_eq, msg_eq]
  rfl

end Cert.ReferenceIdeal.RefNet

end
-- ==== Proof.lean ====
/-
  The claims of this certificate: an edge-scoring graph network (messages along the edges, mean over incoming edges, a
  clamped update of the node features, a score per edge from the features at both end points) as three tiled kernel calls
  with host gathers and scatter-adds between them, against the same network written with joined inputs and whole
  matrix products.

  Over the extended reals both programs compute `Net.net` of the nine arguments. On the kernel's side the run of the
  three-call program is read at its end (`KernelRun`), each call's output array is the two-product layer `lin2` of the
  arrays the call finds (`Region0`, `Region1`, `Region2`: a tile's rows are rows of the layer of the whole arrays, and
  the tiles cover the array), and the buffers are followed through the host operations between the calls (`Fold`). On
  the reference's side each layer on joined inputs is rewritten into `lin2` by splitting the sum over the 128 joined
  columns into the first 64 and the last 64 (`LibSplitAffine`, `RefNet`); sums of extended reals are commutative and
  associative, so no finiteness is used. The gathers, scatter-adds and the division are the same host operations on the
  same arrays in both programs. The three frames are the generated ones (the two kernel programs' through copies of the generated launch and frame modules: see their headers); the idealization rewrote nothing.
-/
import proofs.«181442_j6949257085052_1_alg».proof.Defs
import proofs.«181442_j6949257085052_1_alg».proof.Proof.Gen.Kernel
import proofs.«181442_j6949257085052_1_alg».proof.Proof.Gen.Kernel.Skeleton
import proofs.«181442_j6949257085052_1_alg».proof.Proof.Gen.Kernel.Points
import proofs.«181442_j6949257085052_1_alg».proof.Proof.KernelFrameP
import proofs.«181442_j6949257085052_1_alg».proof.Proof.Gen.KernelIdeal
import proofs.«181442_j6949257085052_1_alg».proof.Proof.Gen.KernelIdeal.Skeleton
import proofs.«181442_j6949257085052_1_alg».proof.Proof.Gen.KernelIdeal.Points
import proofs.«181442_j6949257085052_1_alg».proof.Proof.KernelIdealFrameP
import proofs.«181442_j6949257085052_1_alg».proof.Proof.Gen.ReferenceIdeal
import proofs.«181442_j6949257085052_1_alg».proof.Proof.Gen.ReferenceIdeal.Read
import proofs.«181442_j6949257085052_1_alg».proof.Proof.Gen.Pre_finite_inputs
import proofs.«181442_j6949257085052_1_alg».proof.Proof.KernelRun
import proofs.«181442_j6949257085052_1_alg».proof.Proof.Fold
import proofs.«181442_j6949257085052_1_alg».proof.Proof.RefNet
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenP.frame m ρ
theorem frame_ki : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the network of the arguments in their result arrays. -/
theorem algebraic : Cert.algebraic_KernelIdeal_ReferenceIdeal := by
  intro m ρ m' ρ' _ hagree
  refine ⟨fun c => Cert.KernelIdeal.Net.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.Fold.result m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v55_eq, Cert.ReferenceIdeal.RefNet.ref_eq]
    obtain ⟨h0, h1, h2, h3, h4, h5, h6, h7, h8⟩ := hagree c
    rw [h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
